-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S8192x256 .f32) (main_arg1 : FVec F S8192x256 .f32) (main_arg2 : FVec F S8192x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S8192x256 : Shape := ⟨2, ![8192, 256]⟩
abbrev S256x256 : Shape := ⟨2, ![256, 256]⟩
abbrev S256 : Shape := ⟨1, ![256]⟩
abbrev S1024x256 : Shape := ⟨2, ![1024, 256]⟩
abbrev S1x256 : Shape := ⟨2, ![1, 256]⟩
abbrev S512x256 : Shape := ⟨2, ![512, 256]⟩
abbrev S512x1 : Shape := ⟨2, ![512, 1]⟩
abbrev S512x1024 : Shape := ⟨2, ![512, 1024]⟩
abbrev S512 : Shape := ⟨1, ![512]⟩

abbrev nBuf : Space → Nat
  | .hbm => 15
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S8192x256, .f32⟩
  | .hbm, ⟨13, _⟩ => ⟨S8192x256, .bf16⟩
  | .hbm, ⟨14, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S512x256, .f32⟩
  | .local _ .vmem, ⟨13, _⟩ => ⟨S512x256, .f32⟩
  | .local _ .vmem, ⟨14, _⟩ => ⟨S256x256, .f32⟩
  | .local _ .vmem, ⟨15, _⟩ => ⟨S256, .f32⟩
  | .local _ .vmem, ⟨16, _⟩ => ⟨S8192x256, .f32⟩
  | .local _ .vmem, ⟨17, _⟩ => ⟨S8192x256, .bf16⟩
  | .local _ .vmem, ⟨18, _⟩ => ⟨S512x256, .f32⟩
  | .local _ .vmem, ⟨19, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S512x256_S512x256_0_0 : ∀ a, (![0, 0] : Fin 2 → Nat) a + S512x256.size a ≤ S512x256.size a
  h_S512x256 : 0 < S512x256.numel
  broadcasts_S1x256_S512x256 : S1x256.Broadcasts S512x256
  inb_S8192x256_S1024x256_0_0 : ∀ a, (![0, 0] : Fin 2 → Nat) a + S1024x256.size a ≤ S8192x256.size a
  shapeCasts_S1024x256_S1024x256 : S1024x256.ShapeCasts S1024x256
  reduces_S512x1024_S512 : S512x1024.Reduces [1] S512
  shapeCasts_S512_S512x1 : S512.ShapeCasts S512x1
  broadcasts_S512x1_S512x1024 : S512x1.Broadcasts S512x1024
  broadcasts_S512x1_S512x256 : S512x1.Broadcasts S512x256
  inb_S8192x256_S1024x256_1024_0 : ∀ a, (![1024, 0] : Fin 2 → Nat) a + S1024x256.size a ≤ S8192x256.size a
  inb_S8192x256_S1024x256_2048_0 : ∀ a, (![2048, 0] : Fin 2 → Nat) a + S1024x256.size a ≤ S8192x256.size a
  inb_S8192x256_S1024x256_3072_0 : ∀ a, (![3072, 0] : Fin 2 → Nat) a + S1024x256.size a ≤ S8192x256.size a
  inb_S8192x256_S1024x256_4096_0 : ∀ a, (![4096, 0] : Fin 2 → Nat) a + S1024x256.size a ≤ S8192x256.size a
  inb_S8192x256_S1024x256_5120_0 : ∀ a, (![5120, 0] : Fin 2 → Nat) a + S1024x256.size a ≤ S8192x256.size a
  inb_S8192x256_S1024x256_6144_0 : ∀ a, (![6144, 0] : Fin 2 → Nat) a + S1024x256.size a ≤ S8192x256.size a
  inb_S8192x256_S1024x256_7168_0 : ∀ a, (![7168, 0] : Fin 2 → Nat) a + S1024x256.size a ≤ S8192x256.size a
  dot_S1024x256_S256x256_S1024x256_1_0_0_1_n_n_wf : DotDims.WF S1024x256 S256x256 S1024x256 [1] [0] [0] [1] [] []
  dot_S512x256_S256x256_S512x256_1_0_0_1_n_n_wf : DotDims.WF S512x256 S256x256 S512x256 [1] [0] [0] [1] [] []
  dot_S512x256_S1024x256_S512x1024_1_1_0_0_n_n_wf : DotDims.WF S512x256 S1024x256 S512x1024 [1] [1] [0] [0] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .bf16 = 32 ∨ (Rect.block (s := S8192x256) S1024x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .f32 = 32 ∨ (Rect.block (s := S8192x256) S8192x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x256.size a ≤ S8192x256.size a
  hwx1_4 : ∀ i : grid1.Coords, EltTy.bits .bf16 = 32 ∨ (Rect.block (s := S8192x256) S8192x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .f32 = 32 ∨ (Rect.block (s := S8192x256) S512x256.size (cc1_transform_5 i) (hinb1_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S8192x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S256x256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S256x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S256x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelRun.lean ====
/-
  The idealized kernel's run with its result named.

  Every weakly fair execution of the two-call program terminates without a fault; the argument arrays end as they
  were launched and the result array ends at what the second call's write-backs leave in it, the contents the
  generated frame calls `W3` at the result's buffer. (The generated frame states the same run but keeps only the
  arguments; here the read-back of the last thread state also keeps the result.)
-/
import proofs.«150723_j24369644437965_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelRun

end
-- ==== Proof.AttentionChain.lean ====
/-
  The attention kernel's body as eight steps of a streaming softmax.

  The body keeps, per query row, a running level `m`, a running normalizer `l` and a running weighted sum `acc`.
  One step takes a chunk of 1024 keys `kc` and values `vc`: the scores of the query tile against the chunk, the new
  level (the old level or the chunk's row maximum, whichever is larger), the decay `exp (m - m')` of the old sums,
  the weights `exp (s - m')`, and the updated sums. The result is the last weighted sum divided by the last
  normalizer. Here the printed body's arithmetic is restated in these words, for any float type.
-/
import proofs.«150723_j24369644437965_2_alg».proof.Proof.Gen.KernelIdeal.Frame

noncomputable section

namespace Cert.AttentionChain

open Cert.KernelIdeal Cert.KernelIdeal.Gen Idealize.ShloMosaic

variable {F : FTy → Type} [FloatOps F] [Cert.KernelIdeal.Facts]

/-- The scores of the query tile against one chunk of keys: `q · kcᵀ`. -/
def scoresOf (q : FVec F S512x256 .f32) (kc : FVec F S1024x256 .f32) : FVec F S512x1024 .f32 :=
  matmul dot_S512x256_S1024x256_S512x1024_1_1_0_0_n_n none q kc (constant S512x1024 .f32 0x00000000#32)

/-- The new level: the old one or the chunk's row maximum. -/
def levelOf (q : FVec F S512x256 .f32) (kc : FVec F S1024x256 .f32) (m : FVec F S512x1 .f32) : FVec F S512x1 .f32 :=
  maximumf m (shapeCast S512x1 (multiReduction .maximumf [1] S512 (scoresOf q kc) 0xFF800000#32 reduces_S512x1024_S512 (.inl rfl) rfl) shapeCasts_S512_S512x1)

/-- The decay of the sums kept relative to the old level. -/
def decayOf (q : FVec F S512x256 .f32) (kc : FVec F S1024x256 .f32) (m : FVec F S512x1 .f32) : FVec F S512x1 .f32 :=
  exp (subf m (levelOf q kc m))

/-- The chunk's weights relative to the new level. -/
def weightsOf (q : FVec F S512x256 .f32) (kc : FVec F S1024x256 .f32) (m : FVec F S512x1 .f32) : FVec F S512x1024 .f32 :=
  exp (subf (scoresOf q kc) (broadcastTo S512x1024 (levelOf q kc m) broadcasts_S512x1_S512x1024))

/-- The updated normalizer. -/
def normOf (q : FVec F S512x256 .f32) (kc : FVec F S1024x256 .f32) (m l : FVec F S512x1 .f32) : FVec F S512x1 .f32 :=
  addf (mulf (decayOf q kc m) l)
    (shapeCast S512x1 (multiReduction .add [1] S512 (weightsOf q kc m) 0x00000000#32 reduces_S512x1024_S512 (.inl rfl) rfl) shapeCasts_S512_S512x1)

/-- The updated weighted sum of value rows. -/
def accOf (q : FVec F S512x256 .f32) (kc : FVec F S1024x256 .f32) (vc : FVec F S1024x256 .bf16) (m : FVec F S512x1 .f32)
    (acc : FVec F S512x256 .f32) : FVec F S512x256 .f32 :=
  addf (mulf (broadcastTo S512x256 (decayOf q kc m) broadcasts_S512x1_S512x256) acc)
    (matmul dot_S512x1024_S1024x256_S512x256_1_0_0_1_n_n none (truncf .bf16 (weightsOf q kc m) bitsLt_bf16_f32) vc
      (constant S512x256 .f32 0x00000000#32))

/-- A chunk of keys as the body names it after loading it. -/
def keysOf (x : Vec F S1024x256 .f32) : FVec F S1024x256 .f32 := shapeCast S1024x256 x shapeCasts_S1024x256_S1024x256

/-- A chunk of values as the body names it after loading it. -/
def valsOf (x : Vec F S1024x256 .bf16) : FVec F S1024x256 .bf16 := shapeCast S1024x256 x shapeCasts_S1024x256_S1024x256

/-- The starting level `-∞`, normalizer `0` and weighted sum `0`. -/
def level0 : FVec F S512x1 .f32 := broadcast S512x1 (Scalar.ofBits .f32 0xFF800000#32)
def norm0 : FVec F S512x1 .f32 := broadcast S512x1 (Scalar.ofBits .f32 0x00000000#32)
def acc0 : FVec F S512x256 .f32 := broadcast S512x256 (Scalar.ofBits .f32 0x00000000#32)

/-- The eight steps over the chunks `k0 … k7`, `v0 … v7`, and the final division. -/
def tileOf (q : FVec F S512x256 .f32) (k0 k1 k2 k3 k4 k5 k6 k7 : FVec F S1024x256 .f32)
    (v0 v1 v2 v3 v4 v5 v6 v7 : FVec F S1024x256 .bf16) : FVec F S512x256 .f32 :=
  let m1 := levelOf q k0 level0
  let l1 := normOf q k0 level0 norm0
  let a1 := accOf q k0 v0 level0 acc0
  let m2 := levelOf q k1 m1
  let l2 := normOf q k1 m1 l1
  let a2 := accOf q k1 v1 m1 a1
  let m3 := levelOf q k2 m2
  let l3 := normOf q k2 m2 l2
  let a3 := accOf q k2 v2 m2 a2
  let m4 := levelOf q k3 m3
  let l4 := normOf q k3 m3 l3
  let a4 := accOf q k3 v3 m3 a3
  let m5 := levelOf q k4 m4
  let l5 := normOf q k4 m4 l4
  let a5 := accOf q k4 v4 m4 a4
  let m6 := levelOf q k5 m5
  let l6 := normOf q k5 m5 l5
  let a6 := accOf q k5 v5 m5 a5
  let m7 := levelOf q k6 m6
  let l7 := normOf q k6 m6 l6
  let a7 := accOf q k6 v6 m6 a6
  let l8 := normOf q k7 m7 l7
  let a8 := accOf q k7 v7 m7 a7
  divf a8 (broadcastTo S512x256 l8 broadcasts_S512x1_S512x256)

/-- The body's one store, as the eight steps over the loaded chunks. -/
theorem out_eq_tile (x0 : Vec F S512x256 .f32) (x1 : Vec F S256x256 .f32) (x2 : Vec F S256 .f32) (x3 : Vec F S8192x256 .f32)
    (x4 : Vec F S8192x256 .bf16) :
    out1_5 x0 x1 x2 x3 x4 = View.canon [⟨r1_0, tileOf (k1_pay2 (View.ld x0 r1_0) (View.ld x1 r1_1) (View.ld x2 r1_2))
      (keysOf (View.ld x3 r1_3)) (keysOf (View.ld x3 r1_4)) (keysOf (View.ld x3 r1_5)) (keysOf (View.ld x3 r1_6))
      (keysOf (View.ld x3 r1_7)) (keysOf (View.ld x3 r1_8)) (keysOf (View.ld x3 r1_9)) (keysOf (View.ld x3 r1_10))
      (valsOf (View.ld x4 r1_3)) (valsOf (View.ld x4 r1_4)) (valsOf (View.ld x4 r1_5)) (valsOf (View.ld x4 r1_6))
      (valsOf (View.ld x4 r1_7)) (valsOf (View.ld x4 r1_8)) (valsOf (View.ld x4 r1_9)) (valsOf (View.ld x4 r1_10))⟩] := rfl

end Cert.AttentionChain

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibLogSoftmax.lean ====
/-
  The logarithm of a soft maximum along the rows of an `a × b` matrix, over the extended reals, generic in the sizes.

  `logSoftmax x (r, j) = s (r, j) − log (∑ₖ exp (s (r, k)))` where `s (r, j) = x (r, j) − max_k x (r, k)` and the row
  maximum is folded from `−∞`. Two programs compute it:
  * a kernel body, by vector operations: a maximum reduction of the last axis from `−∞`, viewed as a column and
    repeated along the rows; a subtraction; an exponential; a sum reduction of the last axis; a logarithm of the
    column; a subtraction (`kernel_eq`);
  * a host program, by StableHLO operations: a reduce with a maximum body from `−∞`, a further maximum with `−∞`
    (which changes nothing: the fold already starts there), broadcasts, subtract, exponential, a reduce with an add
    body from `0`, logarithm, subtract (`host_eq`).
-/
import proofs.«150723_j24369644437965_2_alg».proof.Proof.LibLayout
import proofs.«150723_j24369644437965_2_alg».proof.Proof.LibHostRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibLogSoftmax

open Idealize.ShloMosaic Idealize.ShloMosaic.ValueIdx

variable {a b : Nat}

/-- Row `r`'s maximum, folded from `−∞`. -/
def rowMax (x : (⟨2, ![a, b]⟩ : Shape).Idx → EReal) (r : Fin a) : EReal :=
  (Finset.univ : Finset (Fin b)).fold max (Ideal.ofBits .f32 0xFF800000#32) (fun j => x (ix2 r j))

/-- The entry less its row's maximum. -/
def shifted (x : (⟨2, ![a, b]⟩ : Shape).Idx → EReal) (r : Fin a) (j : Fin b) : EReal := x (ix2 r j) - rowMax x r

/-- The shifted entry less the logarithm of the row's sum of exponentials of shifted entries. -/
def logSoftmax (x : (⟨2, ![a, b]⟩ : Shape).Idx → EReal) : (⟨2, ![a, b]⟩ : Shape).Idx → EReal :=
  fun i => shifted x (i 0) (i 1) - Ideal.log (∑ k : Fin b, Ideal.exp (shifted x (i 0) k))

/-- The reduced index `r` with the last coordinate `k` put back is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A column repeated along the rows reads, at `(r, j)`, the column's entry of row `r`. -/
theorem colAcross_apply {α : Type} (v : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h v (ix2 r j) = v (ix2 r (0 : Fin 1)) :=
  broadcastInDim_apply _ h v (ix2 r j) (ix2 r (0 : Fin 1)) (fun c => match c with
    | ⟨0, _⟩ => by
      show r.val = if a = 1 then 0 else r.val
      split
      · have := r.isLt; omega
      · rfl
    | ⟨1, _⟩ => by
      show 0 = if (1 : Nat) = 1 then 0 else j.val
      rw [if_pos rfl])

/-! ## The kernel's reading -/

/-- The kernel's maximum reduction of the last axis from `−∞`, at row `r`. -/
theorem kernelRowMax_apply (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ x 0xFF800000#32 h hφ hacc (ix1 r) = rowMax x r := by
  rw [Ideal.multiReduction_maximumf_single]
  have e : (x ∘ h.lift (ix1 r)) = fun k : Fin b => x (ix2 r k) := funext fun k => congrArg x (lift_last h r k)
  rw [e]
  rfl

/-- The kernel's sum reduction of the last axis, at row `r`. -/
theorem kernelRowSum_apply (y : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ y 0x00000000#32 h hφ hacc (ix1 r) = ∑ k : Fin b, y (ix2 r k) := by
  rw [Ideal.multiReduction_add_single]
  exact Finset.sum_congr rfl fun k _ => congrArg y (lift_last h r k)

/-- A per-row value viewed as a column and repeated along the rows reads, at `(r, j)`, the value of row `r`. -/
theorem perRow_apply {α : Type} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (j : Fin b) :
    broadcastTo ⟨2, ![a, b]⟩ (shapeCast ⟨2, ![a, 1]⟩ v hc) hb (ix2 r j) = v (ix1 r) :=
  (Cert.Attn.Layout.broadcastTo_a1_ab_apply _ hb r j).trans (Cert.Attn.Layout.shapeCast_a_a1_apply v hc r 0)

/-- THE KERNEL'S vector operations compute the logarithm of the soft maximum along the rows. -/
theorem kernel_eq (x : FVec Ideal ⟨2, ![a, b]⟩ .f32) (h : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) :
    subf (subf x (broadcastTo ⟨2, ![a, b]⟩ (shapeCast ⟨2, ![a, 1]⟩ (multiReduction .maximumf [1] ⟨1, ![a]⟩ x 0xFF800000#32 h hφ hmax) hc) hb))
      (broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩ (multiReduction .maximumf [1] ⟨1, ![a]⟩ x 0xFF800000#32 h hφ hmax) hc) hb)))
          0x00000000#32 h hφ hadd) hc)) hb)
      = logSoftmax x := by
  have hs : ∀ (r : Fin a) (j : Fin b),
      subf x (broadcastTo ⟨2, ![a, b]⟩ (shapeCast ⟨2, ![a, 1]⟩ (multiReduction .maximumf [1] ⟨1, ![a]⟩ x 0xFF800000#32 h hφ hmax) hc) hb) (ix2 r j)
        = shifted x r j := fun r j => by
    show x (ix2 r j) - _ = x (ix2 r j) - rowMax x r
    rw [perRow_apply, kernelRowMax_apply]
  funext i
  obtain ⟨r, j, rfl⟩ : ∃ (r : Fin a) (j : Fin b), i = ix2 r j := ⟨i 0, i 1, eq_ix2 i⟩
  show _ - _ = shifted x r j - Ideal.log (∑ k : Fin b, Ideal.exp (shifted x r k))
  rw [hs r j, Cert.Attn.Layout.broadcastTo_a1_ab_apply]
  show shifted x r j - Ideal.log (shapeCast ⟨2, ![a, 1]⟩ _ hc (ix2 r (0 : Fin 1))) = _
  rw [Cert.Attn.Layout.shapeCast_a_a1_apply, kernelRowSum_apply]
  refine congrArg (fun s => shifted x r j - Ideal.log s) (Finset.sum_congr rfl fun k _ => ?_)
  show Ideal.exp _ = _
  rw [hs r k]

/-! ## The host's reading -/

/-- The host's reduce with a maximum body over the last axis from `−∞`, at row `r`. -/
theorem hostRowMax_apply (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduce FloatOps.maximumf x (constant (F := Ideal) ⟨0, ![]⟩ .f32 0xFF800000#32) h' hu (ix1 r) = rowMax x r := by
  rw [Host.reduce_eq_fold_single FloatOps.maximumf x _ h' h hu]
  have e : (x ∘ h.lift (ix1 r)) = fun k : Fin b => x (ix2 r k) := funext fun k => congrArg x (lift_last h r k)
  rw [e]
  rfl

/-- A further maximum with `−∞` leaves the row maximum as it is: the fold starts at `−∞`. -/
theorem max_negInf_rowMax (x : (⟨2, ![a, b]⟩ : Shape).Idx → EReal) (r : Fin a) :
    max (Ideal.ofBits .f32 0xFF800000#32) (rowMax x r) = rowMax x r :=
  max_eq_right ((Finset.le_fold_max _).mpr (Or.inl le_rfl))

/-- The host's reduce with an add body over the last axis from `0`, at row `r`. -/
theorem hostRowSum_apply (y : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduceAdd y (constant (F := Ideal) ⟨0, ![]⟩ .f32 0x00000000#32) h' hu (ix1 r) = ∑ k : Fin b, y (ix2 r k) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg y (lift_last h r k)

/-- THE HOST'S operations compute the logarithm of the soft maximum along the rows. -/
theorem host_eq (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    subf (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu)))))
      (broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu))))))
          (constant (F := Ideal) ⟨0, ![]⟩ .f32 0x00000000#32) h' hu))))
      = logSoftmax x := by
  have hs : ∀ (r : Fin a) (j : Fin b),
      subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu)))) (ix2 r j)
        = shifted x r j := fun r j => by
    show x (ix2 r j) - _ = x (ix2 r j) - rowMax x r
    rw [colAcross_apply, Cert.LibHR.bcastCol_apply]
    show x (ix2 r j) - max _ _ = _
    rw [Cert.LibHR.bcastScalar_apply, hostRowMax_apply x h' h hu r]
    exact congrArg (x (ix2 r j) - ·) (max_negInf_rowMax x r)
  funext i
  obtain ⟨r, j, rfl⟩ : ∃ (r : Fin a) (j : Fin b), i = ix2 r j := ⟨i 0, i 1, eq_ix2 i⟩
  show _ - _ = shifted x r j - Ideal.log (∑ k : Fin b, Ideal.exp (shifted x r k))
  rw [hs r j, colAcross_apply]
  show shifted x r j - Ideal.log _ = _
  rw [Cert.LibHR.bcastCol_apply, hostRowSum_apply _ h' h hu r]
  refine congrArg (fun s => shifted x r j - Ideal.log s) (Finset.sum_congr rfl fun k _ => ?_)
  show Ideal.exp _ = _
  rw [hs r k]

end Cert.LibLogSoftmax

end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.AttentionStep.lean ====
/-
  One step of the streaming softmax read at an entry, over the extended reals.

  For a query row `r` of the tile: the scores against a chunk of keys are sums over the 256 features; the new level is
  the larger of the old level and the chunk's row maximum; the decay is `exp (m - m')`; the weights are
  `exp (s - m')`; the normalizer becomes `decay * l + ∑ⱼ weightⱼ` and the weighted sum
  `decay * acc + ∑ⱼ weightⱼ * vⱼ`.
-/
import proofs.«150723_j24369644437965_2_alg».proof.Proof.AttentionChain
import proofs.«150723_j24369644437965_2_alg».proof.Proof.LibLogSoftmax
import proofs.«150723_j24369644437965_2_alg».proof.Proof.LibContractLast
import proofs.«150723_j24369644437965_2_alg».proof.Proof.LibContractPlain

noncomputable section

open scoped BigOperators

namespace Cert.AttentionStep

open Cert.KernelIdeal Cert.KernelIdeal.Gen Idealize.ShloMosaic Idealize.ShloMosaic.ValueIdx Cert.AttentionChain

variable [Cert.KernelIdeal.Facts]

/-- The scores of row `r` against key `j` of the chunk: the sum over the features. -/
theorem scoresOf_apply (q : FVec Ideal S512x256 .f32) (kc : FVec Ideal S1024x256 .f32) (r : Fin 512) (j : Fin 1024) :
    scoresOf q kc (ix2 r j) = ∑ d : Fin 256, q (ix2 r d) * kc (ix2 j d) :=
  Cert.LibContractLast.matmulLast_zero_apply 512 256 1024 _ none q kc r j

/-- The new level of row `r`. -/
theorem levelOf_apply (q : FVec Ideal S512x256 .f32) (kc : FVec Ideal S1024x256 .f32) (m : FVec Ideal S512x1 .f32)
    (r : Fin 512) (u : Fin 1) :
    levelOf q kc m (ix2 r u) = max (m (ix2 r u)) (Cert.LibLogSoftmax.rowMax (scoresOf q kc) r) := by
  show max (m (ix2 r u)) (shapeCast S512x1 _ _ (ix2 r u)) = _
  rw [Cert.Attn.Layout.shapeCast_a_a1_apply]
  exact congrArg (max (m (ix2 r u))) (Cert.LibLogSoftmax.kernelRowMax_apply (a := 512) (b := 1024) (scoresOf q kc) _ _ _ r)

/-- The decay of row `r`. -/
theorem decayOf_apply (q : FVec Ideal S512x256 .f32) (kc : FVec Ideal S1024x256 .f32) (m : FVec Ideal S512x1 .f32)
    (r : Fin 512) (u : Fin 1) :
    decayOf q kc m (ix2 r u) = Ideal.exp (m (ix2 r u) - levelOf q kc m (ix2 r u)) := rfl

/-- The weight of key `j` of the chunk for row `r`. -/
theorem weightsOf_apply (q : FVec Ideal S512x256 .f32) (kc : FVec Ideal S1024x256 .f32) (m : FVec Ideal S512x1 .f32)
    (r : Fin 512) (j : Fin 1024) :
    weightsOf q kc m (ix2 r j) = Ideal.exp (scoresOf q kc (ix2 r j) - levelOf q kc m (ix2 r (0 : Fin 1))) := by
  show Ideal.exp (scoresOf q kc (ix2 r j) - broadcastTo S512x1024 (levelOf q kc m) _ (ix2 r j)) = _
  rw [Cert.Attn.Layout.broadcastTo_a1_ab_apply]

/-- The updated normalizer of row `r`. -/
theorem normOf_apply (q : FVec Ideal S512x256 .f32) (kc : FVec Ideal S1024x256 .f32) (m l : FVec Ideal S512x1 .f32)
    (r : Fin 512) (u : Fin 1) :
    normOf q kc m l (ix2 r u)
      = decayOf q kc m (ix2 r u) * l (ix2 r u) + ∑ j : Fin 1024, weightsOf q kc m (ix2 r j) := by
  show decayOf q kc m (ix2 r u) * l (ix2 r u) + shapeCast S512x1 _ _ (ix2 r u) = _
  rw [Cert.Attn.Layout.shapeCast_a_a1_apply]
  exact congrArg (decayOf q kc m (ix2 r u) * l (ix2 r u) + ·)
    (Cert.LibLogSoftmax.kernelRowSum_apply (a := 512) (b := 1024) (weightsOf q kc m) _ _ _ r)

/-- The updated weighted sum of row `r` at feature `c`. -/
theorem accOf_apply (q : FVec Ideal S512x256 .f32) (kc : FVec Ideal S1024x256 .f32) (vc : FVec Ideal S1024x256 .bf16)
    (m : FVec Ideal S512x1 .f32) (acc : FVec Ideal S512x256 .f32) (r : Fin 512) (c : Fin 256) :
    accOf q kc vc m acc (ix2 r c)
      = decayOf q kc m (ix2 r (0 : Fin 1)) * acc (ix2 r c) + ∑ j : Fin 1024, weightsOf q kc m (ix2 r j) * vc (ix2 j c) := by
  show broadcastTo S512x256 (decayOf q kc m) _ (ix2 r c) * acc (ix2 r c) + _ = _
  rw [Cert.Attn.Layout.broadcastTo_a1_ab_apply]
  exact congrArg (decayOf q kc m (ix2 r (0 : Fin 1)) * acc (ix2 r c) + ·)
    (Cert.LibContractPlain.matmulPlain_zero_apply 512 1024 256 _ none (weightsOf q kc m) vc r c)

end Cert.AttentionStep

end
-- ==== Proof.LibOnlineSoftmax.lean ====
/-
  The streaming form of a softmax-weighted average, over the reals.

  A softmax-weighted average of values `W j` with scores `F j` is
  `(∑ j, exp (F j) * W j) / (∑ j, exp (F j))`. Subtracting any real `M` from every score changes neither the
  numerator-to-denominator ratio (`shift`), so a streaming evaluation may carry its partial sums relative to a
  running reference level `M` that it is free to move: when the level moves from `M` to `M'` the partial sums are
  multiplied by `exp (M - M')` (`rescale`), and the next block of keys is added relative to the new level. No property
  of the level is used — in particular not that it is the running maximum.
-/
import Mathlib.Analysis.SpecialFunctions.Exp
import Mathlib.Algebra.BigOperators.Field
import Mathlib.Algebra.BigOperators.Fin
import Mathlib.Tactic.Ring
import Mathlib.Tactic.FieldSimp
import Mathlib.Tactic.Positivity

noncomputable section

namespace OnlineSoftmax

open Finset Real

/-- Moving the reference level from `M` to `M'` and adding block `n`: the weighted partial sum over the blocks
    `0 … n - 1` relative to `M`, rescaled by `exp (M - M')`, plus block `n` relative to `M'`, is the weighted partial
    sum over the blocks `0 … n` relative to `M'`. Keys are numbered `block * B + position`. -/
theorem rescale (n B : ℕ) (F W : ℕ → ℝ) (M M' : ℝ) :
    exp (M - M') * (∑ bb ∈ range n, ∑ jj : Fin B, exp (F (bb * B + jj.val) - M) * W (bb * B + jj.val))
        + ∑ jj : Fin B, exp (F (n * B + jj.val) - M') * W (n * B + jj.val)
      = ∑ bb ∈ range (n + 1), ∑ jj : Fin B, exp (F (bb * B + jj.val) - M') * W (bb * B + jj.val) := by
  rw [sum_range_succ, mul_sum]
  congr 1
  refine sum_congr rfl fun bb _ => ?_
  rw [mul_sum]
  refine sum_congr rfl fun jj _ => ?_
  rw [← mul_assoc, ← exp_add]
  congr 2
  ring

/-- The same for the unweighted partial sums (the normalizer). -/
theorem rescale_one (n B : ℕ) (F : ℕ → ℝ) (M M' : ℝ) :
    exp (M - M') * (∑ bb ∈ range n, ∑ jj : Fin B, exp (F (bb * B + jj.val) - M))
        + ∑ jj : Fin B, exp (F (n * B + jj.val) - M')
      = ∑ bb ∈ range (n + 1), ∑ jj : Fin B, exp (F (bb * B + jj.val) - M') := by
  simpa using rescale n B F (fun _ => 1) M M'

/-- The first block, added to a state reset to zero with rescaling factor zero: the partial sum over block `0`. -/
theorem first (B : ℕ) (F W : ℕ → ℝ) (M' : ℝ) :
    (0 : ℝ) * 0 + ∑ jj : Fin B, exp (F (0 * B + jj.val) - M') * W (0 * B + jj.val)
      = ∑ bb ∈ range (0 + 1), ∑ jj : Fin B, exp (F (bb * B + jj.val) - M') * W (bb * B + jj.val) := by
  simp

/-- The same for the unweighted partial sum. -/
theorem first_one (B : ℕ) (F : ℕ → ℝ) (M' : ℝ) :
    (0 : ℝ) * 0 + ∑ jj : Fin B, exp (F (0 * B + jj.val) - M')
      = ∑ bb ∈ range (0 + 1), ∑ jj : Fin B, exp (F (bb * B + jj.val) - M') := by
  simp

/-- A partial normalizer over at least one nonempty block is positive. -/
theorem partial_pos (n B : ℕ) (hB : 0 < B) (F : ℕ → ℝ) (M : ℝ) :
    0 < ∑ bb ∈ range (n + 1), ∑ jj : Fin B, exp (F (bb * B + jj.val) - M) := by
  haveI : Nonempty (Fin B) := ⟨⟨0, hB⟩⟩
  exact sum_pos (fun bb _ => sum_pos (fun jj _ => exp_pos _) univ_nonempty)
    ⟨0, mem_range.2 (Nat.succ_pos n)⟩

/-- All `A` blocks of `B` keys are all `A * B` keys. -/
theorem sum_all_blocks (A B : ℕ) (f : ℕ → ℝ) :
    ∑ bb ∈ range A, ∑ jj : Fin B, f (bb * B + jj.val) = ∑ j : Fin (A * B), f j.val := by
  rw [← Fin.sum_univ_eq_sum_range (fun bb => ∑ jj : Fin B, f (bb * B + jj.val)) A,
    ← Equiv.sum_comp finProdFinEquiv (fun j : Fin (A * B) => f j.val), Fintype.sum_prod_type]
  refine sum_congr rfl fun a _ => sum_congr rfl fun b _ => congrArg f ?_
  show a.val * B + b.val = b.val + B * a.val
  ring

/-- A softmax-weighted average does not depend on the reference level subtracted from the scores. -/
theorem shift {ι : Type*} (s : Finset ι) (F W : ι → ℝ) (M : ℝ) :
    (∑ j ∈ s, exp (F j - M) * W j) / (∑ j ∈ s, exp (F j - M))
      = (∑ j ∈ s, exp (F j) * W j) / (∑ j ∈ s, exp (F j)) := by
  have h1 : ∑ j ∈ s, exp (F j - M) * W j = (∑ j ∈ s, exp (F j) * W j) / exp M := by
    rw [sum_div]; exact sum_congr rfl fun j _ => by rw [exp_sub]; ring
  have h2 : ∑ j ∈ s, exp (F j - M) = (∑ j ∈ s, exp (F j)) / exp M := by
    rw [sum_div]; exact sum_congr rfl fun j _ => by rw [exp_sub]
  rw [h1, h2, div_div_div_cancel_right₀ (exp_ne_zero M)]

/-- The streamed ratio after all 16 blocks of 512 keys is the softmax-weighted average over the 8192 keys. -/
theorem final_ratio (F W : ℕ → ℝ) (M : ℝ) :
    (∑ bb ∈ range (15 + 1), ∑ jj : Fin 512, exp (F (bb * 512 + jj.val) - M) * W (bb * 512 + jj.val))
        / (∑ bb ∈ range (15 + 1), ∑ jj : Fin 512, exp (F (bb * 512 + jj.val) - M))
      = (∑ j : Fin 8192, exp (F j.val) * W j.val) / (∑ j : Fin 8192, exp (F j.val)) := by
  rw [sum_all_blocks 16 512 (fun j => exp (F j - M) * W j), sum_all_blocks 16 512 (fun j => exp (F j - M))]
  exact shift Finset.univ (fun j : Fin 8192 => F j.val) (fun j : Fin 8192 => W j.val) M

/-- Normalizing each weight first and then averaging (the two-pass form, its normalizer started from `0`) is the
    ratio of the weighted sum to the normalizer. -/
theorem normalize_first {ι : Type*} (s : Finset ι) (E W : ι → ℝ) :
    ∑ j ∈ s, E j / (0 + ∑ j' ∈ s, E j') * W j = (∑ j ∈ s, E j * W j) / (∑ j' ∈ s, E j') := by
  rw [zero_add, sum_div]
  exact sum_congr rfl fun j _ => by ring

/-- A normalizer of exponentials over a nonempty key set is positive. -/
theorem normalizer_pos {ι : Type*} (s : Finset ι) (hs : s.Nonempty) (F : ι → ℝ) : 0 < ∑ j ∈ s, exp (F j) :=
  sum_pos (fun j _ => exp_pos _) hs

end OnlineSoftmax

end
-- ==== Proof.LibFiniteAssoc.lean ====
/-
  Finite reals inside the extended reals: sums, and the associativity of a triple product.

  A finite sum of reals computed in the extended reals is the real sum (`coe_sum_real`). Hence a triple product
  of arrays whose entries are all reals can be re-associated inside the extended reals (`assoc_fin`):
  the sum over l of (the sum over k of a k * w k l) * v l is the sum over k of a k * (the sum over l of
  w k l * v l). Without finiteness this fails: distributivity does not hold at the infinities. This is the law
  that lets a weight be folded into the next one before a matrix product.
-/
import Mathlib.Data.EReal.Operations
import Mathlib.Algebra.BigOperators.Ring.Finset
import Mathlib.Algebra.BigOperators.Group.Finset.Sigma

noncomputable section

namespace Cert.LibFiniteAssoc

open Finset

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Associativity of a triple product of finite reals inside the extended reals:
`∑ l, (∑ k, a k * w k l) * v l = ∑ k, a k * ∑ l, w k l * v l` when every entry is a real. -/
theorem assoc_fin {K L : Nat} (a : Fin K → EReal) (w : Fin K → Fin L → EReal) (v : Fin L → EReal)
    (ha : ∀ k, ∃ r : ℝ, a k = (r : EReal)) (hw : ∀ k l, ∃ r : ℝ, w k l = (r : EReal))
    (hv : ∀ l, ∃ r : ℝ, v l = (r : EReal)) :
    ∑ l : Fin L, (∑ k : Fin K, a k * w k l) * v l = ∑ k : Fin K, a k * ∑ l : Fin L, w k l * v l := by
  choose a' ha' using ha
  choose w' hw' using hw
  choose v' hv' using hv
  obtain rfl : a = fun k => (a' k : EReal) := funext ha'
  obtain rfl : w = fun k l => (w' k l : EReal) := funext fun k => funext fun l => hw' k l
  obtain rfl : v = fun l => (v' l : EReal) := funext hv'
  simp only [← EReal.coe_mul, coe_sum_real]
  congr 1
  simp only [Finset.sum_mul, Finset.mul_sum, mul_assoc]
  exact Finset.sum_comm

end Cert.LibFiniteAssoc

end
-- ==== Proof.AttentionRow.lean ====
/-
  The streaming softmax of one query row, over real scores and real value rows.

  Row `r` of the tile has real features `qr`; key `j` (numbered over all chunks, `chunk * 1024 + position`) has real
  features `kr j` and value row `vr j`; the score is `s j = ∑ d, qr d * kr j d`. After `n` chunks the running level
  is some real `M`, the normalizer is `∑ exp (s j - M)` over the first `n` chunks and the weighted sum is
  `∑ exp (s j - M) * vr j c` (`Inv`). The first step establishes this from the starting state (level `-∞`, sums `0`:
  the decay is `exp (-∞) = 0`), every later step preserves it (the rescaling law of partial sums when the level
  moves), and after eight chunks the quotient of the two sums is the softmax-weighted average over all 8192 keys.
-/
import proofs.«150723_j24369644437965_2_alg».proof.Proof.AttentionStep
import proofs.«150723_j24369644437965_2_alg».proof.Proof.LibOnlineSoftmax
import proofs.«150723_j24369644437965_2_alg».proof.Proof.LibFiniteAssoc

noncomputable section

open scoped BigOperators

namespace Cert.AttentionRow

open Cert.KernelIdeal Cert.KernelIdeal.Gen Idealize.ShloMosaic Idealize.ShloMosaic.ValueIdx Cert.AttentionChain
open Cert.AttentionStep Cert.LibFiniteAssoc

variable [Cert.KernelIdeal.Facts]

/-- The score of a query with real features `qr` against key `j`. -/
def scoreOf (qr : Fin 256 → ℝ) (kr : ℕ → Fin 256 → ℝ) (j : ℕ) : ℝ := ∑ d : Fin 256, qr d * kr j d

/-- The word of `-∞` denotes the bottom of the extended reals. -/
theorem negInf_word : Ideal.ofBits .f32 0xFF800000#32 = ⊥ := by simp [Ideal.ofBits, Ideal.ieee]

/-- The larger of two reals, inside the extended reals. -/
theorem max_coe (a b : ℝ) : max (a : EReal) (b : EReal) = ((max a b : ℝ) : EReal) :=
  (EReal.coe_strictMono.monotone.map_max).symm

/-- The state of row `r` after `n` chunks. -/
def Inv (r : Fin 512) (s : ℕ → ℝ) (vr : ℕ → Fin 256 → ℝ) (n : ℕ) (m l : FVec Ideal S512x1 .f32)
    (acc : FVec Ideal S512x256 .f32) : Prop :=
  ∃ M : ℝ, m (ix2 r (0 : Fin 1)) = ((M : ℝ) : EReal)
    ∧ l (ix2 r (0 : Fin 1))
        = ((∑ bb ∈ Finset.range n, ∑ jj : Fin 1024, Real.exp (s (bb * 1024 + jj.val) - M) : ℝ) : EReal)
    ∧ ∀ c : Fin 256, acc (ix2 r c)
        = ((∑ bb ∈ Finset.range n, ∑ jj : Fin 1024, Real.exp (s (bb * 1024 + jj.val) - M) * vr (bb * 1024 + jj.val) c : ℝ) : EReal)

section chunk

variable (q : FVec Ideal S512x256 .f32) (kc : FVec Ideal S1024x256 .f32) (vc : FVec Ideal S1024x256 .bf16)
  (r : Fin 512) (n : ℕ) (qr : Fin 256 → ℝ) (kr : ℕ → Fin 256 → ℝ) (vr : ℕ → Fin 256 → ℝ)
  (hq : ∀ d : Fin 256, q (ix2 r d) = ((qr d : ℝ) : EReal))
  (hk : ∀ (j : Fin 1024) (d : Fin 256), kc (ix2 j d) = ((kr (n * 1024 + j.val) d : ℝ) : EReal))
  (hv : ∀ (j : Fin 1024) (c : Fin 256), vc (ix2 j c) = ((vr (n * 1024 + j.val) c : ℝ) : EReal))

include hq hk in
/-- The scores of the row against the chunk are the real scores. -/
theorem scores_real (j : Fin 1024) : scoresOf q kc (ix2 r j) = ((scoreOf qr kr (n * 1024 + j.val) : ℝ) : EReal) := by
  rw [scoresOf_apply]
  simp only [hq, hk, ← EReal.coe_mul]
  exact coe_sum_real _ _

include hq hk in
/-- The chunk's row maximum is a real number. -/
theorem chunkMax_real : ∃ C : ℝ, Cert.LibLogSoftmax.rowMax (scoresOf q kc) r = ((C : ℝ) : EReal) := by
  have hlt : Cert.LibLogSoftmax.rowMax (scoresOf q kc) r < ⊤ := by
    unfold Cert.LibLogSoftmax.rowMax
    rw [Finset.fold_max_lt]
    exact ⟨by rw [negInf_word]; exact bot_lt_top, fun j _ => by rw [scores_real q kc r n qr kr hq hk j]; exact EReal.coe_lt_top _⟩
  have hgt : ⊥ < Cert.LibLogSoftmax.rowMax (scoresOf q kc) r := by
    have h0 : scoresOf q kc (ix2 r (0 : Fin 1024)) ≤ Cert.LibLogSoftmax.rowMax (scoresOf q kc) r :=
      (Finset.le_fold_max _).mpr (Or.inr ⟨0, Finset.mem_univ _, le_rfl⟩)
    rw [scores_real q kc r n qr kr hq hk 0] at h0
    exact lt_of_lt_of_le (EReal.bot_lt_coe _) h0
  exact ⟨_, (EReal.coe_toReal hlt.ne hgt.ne').symm⟩

include hq hk hv in
/-- A step after the first keeps the state: the sums relative to the old level are rescaled to the new one. -/
theorem step (m l : FVec Ideal S512x1 .f32) (acc : FVec Ideal S512x256 .f32)
    (h : Inv r (scoreOf qr kr) vr n m l acc) :
    Inv r (scoreOf qr kr) vr (n + 1) (levelOf q kc m) (normOf q kc m l) (accOf q kc vc m acc) := by
  obtain ⟨M, hm, hl, ha⟩ := h
  obtain ⟨C, hC⟩ := chunkMax_real q kc r n qr kr hq hk
  have hlev : levelOf q kc m (ix2 r (0 : Fin 1)) = ((max M C : ℝ) : EReal) := by
    rw [levelOf_apply, hm, hC, max_coe]
  have hdec : decayOf q kc m (ix2 r (0 : Fin 1)) = ((Real.exp (M - max M C) : ℝ) : EReal) := by
    rw [decayOf_apply, hm, hlev, ← EReal.coe_sub]; rfl
  have hw : ∀ j : Fin 1024, weightsOf q kc m (ix2 r j)
      = ((Real.exp (scoreOf qr kr (n * 1024 + j.val) - max M C) : ℝ) : EReal) := fun j => by
    rw [weightsOf_apply, scores_real q kc r n qr kr hq hk j, hlev, ← EReal.coe_sub]; rfl
  refine ⟨max M C, hlev, ?_, fun c => ?_⟩
  · rw [normOf_apply, hdec, hl]
    simp only [hw]
    rw [coe_sum_real, ← EReal.coe_mul, ← EReal.coe_add, OnlineSoftmax.rescale_one n 1024 _ M (max M C)]
  · rw [accOf_apply, hdec, ha c]
    simp only [hw, hv, ← EReal.coe_mul]
    rw [coe_sum_real, ← EReal.coe_add, OnlineSoftmax.rescale n 1024 _ (fun j => vr j c) M (max M C)]

end chunk

/-- The first step, from the level `-∞` and zero sums: the decay is `exp (-∞) = 0`. -/
theorem first (q : FVec Ideal S512x256 .f32) (kc : FVec Ideal S1024x256 .f32) (vc : FVec Ideal S1024x256 .bf16)
    (r : Fin 512) (qr : Fin 256 → ℝ) (kr : ℕ → Fin 256 → ℝ) (vr : ℕ → Fin 256 → ℝ)
    (hq : ∀ d : Fin 256, q (ix2 r d) = ((qr d : ℝ) : EReal))
    (hk : ∀ (j : Fin 1024) (d : Fin 256), kc (ix2 j d) = ((kr (0 * 1024 + j.val) d : ℝ) : EReal))
    (hv : ∀ (j : Fin 1024) (c : Fin 256), vc (ix2 j c) = ((vr (0 * 1024 + j.val) c : ℝ) : EReal)) :
    Inv r (scoreOf qr kr) vr (0 + 1) (levelOf q kc level0) (normOf q kc level0 norm0) (accOf q kc vc level0 acc0) := by
  obtain ⟨C, hC⟩ := chunkMax_real q kc r 0 qr kr hq hk
  have h0 : (level0 (F := Ideal)) (ix2 r (0 : Fin 1)) = ⊥ := negInf_word
  have hl0 : (norm0 (F := Ideal)) (ix2 r (0 : Fin 1)) = ((0 : ℝ) : EReal) := Ideal.ofBits_zero_f32
  have ha0 : ∀ c : Fin 256, (acc0 (F := Ideal)) (ix2 r c) = ((0 : ℝ) : EReal) := fun _ => Ideal.ofBits_zero_f32
  have hlev : levelOf q kc level0 (ix2 r (0 : Fin 1)) = ((C : ℝ) : EReal) := by
    rw [levelOf_apply, h0, hC]; exact max_eq_right bot_le
  have hdec : decayOf q kc level0 (ix2 r (0 : Fin 1)) = ((0 : ℝ) : EReal) := by
    rw [decayOf_apply, h0, EReal.bot_sub]; rfl
  have hw : ∀ j : Fin 1024, weightsOf q kc level0 (ix2 r j)
      = ((Real.exp (scoreOf qr kr (0 * 1024 + j.val) - C) : ℝ) : EReal) := fun j => by
    rw [weightsOf_apply, scores_real q kc r 0 qr kr hq hk j, hlev, ← EReal.coe_sub]; rfl
  refine ⟨C, hlev, ?_, fun c => ?_⟩
  · rw [normOf_apply, hdec, hl0]
    simp only [hw]
    rw [coe_sum_real, ← EReal.coe_mul, ← EReal.coe_add, OnlineSoftmax.first_one 1024 _ C]
  · rw [accOf_apply, hdec, ha0 c]
    simp only [hw, hv, ← EReal.coe_mul]
    rw [coe_sum_real, ← EReal.coe_add, OnlineSoftmax.first 1024 _ (fun j => vr j c) C]

/-- The streamed ratio after all 8 chunks of 1024 keys is the softmax-weighted average over the 8192 keys. -/
theorem ratio_all (F W : ℕ → ℝ) (M : ℝ) :
    (∑ bb ∈ Finset.range (7 + 1), ∑ jj : Fin 1024, Real.exp (F (bb * 1024 + jj.val) - M) * W (bb * 1024 + jj.val))
        / (∑ bb ∈ Finset.range (7 + 1), ∑ jj : Fin 1024, Real.exp (F (bb * 1024 + jj.val) - M))
      = (∑ j : Fin 8192, Real.exp (F j.val) * W j.val) / (∑ j : Fin 8192, Real.exp (F j.val)) := by
  rw [OnlineSoftmax.sum_all_blocks 8 1024 (fun j => Real.exp (F j - M) * W j),
    OnlineSoftmax.sum_all_blocks 8 1024 (fun j => Real.exp (F j - M))]
  exact OnlineSoftmax.shift Finset.univ (fun j : Fin 8192 => F j.val) (fun j : Fin 8192 => W j.val) M

/-- After eight chunks the weighted sum divided by the normalizer is the softmax-weighted average of the value rows. -/
theorem final (r : Fin 512) (s : ℕ → ℝ) (vr : ℕ → Fin 256 → ℝ) (m l : FVec Ideal S512x1 .f32)
    (acc : FVec Ideal S512x256 .f32) (h : Inv r s vr (7 + 1) m l acc) (c : Fin 256) :
    divf acc (broadcastTo S512x256 l broadcasts_S512x1_S512x256) (ix2 r c)
      = (((∑ j : Fin 8192, Real.exp (s j.val) * vr j.val c) / (∑ j : Fin 8192, Real.exp (s j.val)) : ℝ) : EReal) := by
  obtain ⟨M, -, hl, ha⟩ := h
  show Ideal.div (acc (ix2 r c)) (broadcastTo S512x256 l broadcasts_S512x1_S512x256 (ix2 r c)) = _
  rw [Cert.Attn.Layout.broadcastTo_a1_ab_apply, ha c, hl,
    Ideal.div_coe (ne_of_gt (OnlineSoftmax.partial_pos 7 1024 (by norm_num) s M)), ← EReal.coe_mul, mul_one_div,
    ratio_all s (fun j => vr j c) M]

end Cert.AttentionRow

end
-- ==== Proof.LibDenseT.lean ====
/-
  A linear layer with the weight matrix stored output-major, read at an entry, generic in the sizes.

  The weights `W` are a `B × K` matrix (one row per output); the layer multiplies an `A × K` matrix `x` by the
  transpose of `W`. Entry `(r, j)` of the product is the sum over `k` of `x (r, k) · W (j, k)`: for the matrix
  unit's product into a zero accumulator (`matmulT_zero_apply`) and for the host's product (`dotT_apply`), over the
  extended reals, at any precision attribute and any float formats of the operands. With a bias row added, the entry
  is that sum plus the bias at `j`: the bias a one-row matrix broadcast down the rows (`matmulT_rowBias_apply`), or a
  vector broadcast to one row and then down the rows (`dotT_vecBias_apply`).
-/
import proofs.«150723_j24369644437965_2_alg».proof.Proof.LibContractPlain
import Idealize.ShloMosaic.Lib.ValueLayout
import Idealize.ShloMosaic.Lib.Pipeline.Value

noncomputable section

open scoped BigOperators

namespace Cert.LibDenseT

open Idealize.ShloMosaic Idealize.ShloMosaic.ValueIdx Cert.LibContractPlain

/-- The matrix unit's product of `x` by the transposed weights, into a zero accumulator, at `(r, j)`. -/
theorem matmulT_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    FloatOps.matmul (plainDims A K B wf) prec x (transpose ⟨2, ![K, B]⟩ [1, 0] W hT)
        (constant (F := Ideal) ⟨2, ![A, B]⟩ .f32 0x00000000#32) (ix2 r j)
      = ∑ k : Fin K, x (ix2 r k) * W (ix2 j k) := by
  rw [matmulPlain_zero_apply]
  refine Finset.sum_congr rfl fun k _ => ?_
  rw [transpose_ix2_apply]

/-- The host's product of `x` by the transposed weights, at `(r, j)`. -/
theorem dotT_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    Host.dotGeneral (plainDims A K B wf) prec x (transpose ⟨2, ![K, B]⟩ [1, 0] W hT) (ix2 r j)
      = ∑ k : Fin K, x (ix2 r k) * W (ix2 j k) := by
  rw [dotPlain_apply]
  refine Finset.sum_congr rfl fun k _ => ?_
  rw [transpose_ix2_apply]

/-- A one-row matrix broadcast down `A` rows reads, at `(r, j)`, the row's entry `j`. -/
theorem rowDown_apply {α : Type} {A B : Nat} (b : (⟨2, ![1, B]⟩ : Shape).Idx → α)
    (h : (⟨2, ![1, B]⟩ : Shape).Broadcasts ⟨2, ![A, B]⟩) (r : Fin A) (j : Fin B) :
    broadcastTo ⟨2, ![A, B]⟩ b h (ix2 r j) = b (ix2 (0 : Fin 1) j) :=
  broadcastTo_1b_ab_apply b h r j

/-- A vector broadcast to one row and then down `A` rows reads, at `(r, j)`, the vector's entry `j`. -/
theorem vecDown_apply {α : Type} {A B : Nat} (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (r : Fin A) (j : Fin B) :
    broadcastInDim ⟨2, ![A, B]⟩ ![0, 1] h2 (broadcastInDim ⟨2, ![1, B]⟩ ![1] h1 b) (ix2 r j) = b (ix1 j) := by
  refine (broadcastInDim_apply _ h2 _ (ix2 r j) (ix2 (0 : Fin 1) j) (fun c => match c with
    | ⟨0, _⟩ => by
      show 0 = if (1 : Nat) = 1 then 0 else r.val
      rw [if_pos rfl]
    | ⟨1, _⟩ => by
      show j.val = if B = 1 then 0 else j.val
      split
      · have := j.isLt; omega
      · rfl)).trans ?_
  exact broadcastInDim_apply _ h1 b (ix2 (0 : Fin 1) j) (ix1 j) (fun c => match c with
    | ⟨0, _⟩ => by
      show j.val = if B = 1 then 0 else j.val
      split
      · have := j.isLt; omega
      · rfl)

/-- A vector reshaped to one row reads, at `(0, j)`, the vector's entry `j`. -/
theorem vecAsRow_apply {α : Type} {B : Nat} (b : (⟨1, ![B]⟩ : Shape).Idx → α)
    (h : (⟨1, ![B]⟩ : Shape).ShapeCasts ⟨2, ![1, B]⟩) (u : Fin 1) (j : Fin B) :
    shapeCast ⟨2, ![1, B]⟩ b h (ix2 u j) = b (ix1 j) :=
  shapeCast_apply b h _ _ (by
    have hu : u.val = 0 := by omega
    rw [Shape.rowMajor_val_two, Shape.rowMajor_val_one]
    show j.val = u.val * B + j.val
    rw [hu, Nat.zero_mul, Nat.zero_add])

end Cert.LibDenseT

end
-- ==== Proof.AttentionTile.lean ====
/-
  The attention kernel's body at an entry: the streaming softmax of the eight chunks is the softmax-weighted average.

  For the query tile `x0` (512 rows), the projection weights `x1` (input-major) and bias `x2`, the keys `x3` and the
  values `x4` (8192 rows each, all entries real), entry `(r, c)` of the body's store is
  `(∑ j, exp (s j) * V j c) / (∑ j, exp (s j))` with `s j = ∑ d, q d * K j d` and `q` the projected row `r`.
-/
import proofs.«150723_j24369644437965_2_alg».proof.Proof.AttentionRow
import proofs.«150723_j24369644437965_2_alg».proof.Proof.LibDenseT

noncomputable section

open scoped BigOperators

namespace Cert.AttentionTile

open Cert.KernelIdeal Cert.KernelIdeal.Gen Idealize.ShloMosaic Idealize.ShloMosaic.ValueIdx Cert.AttentionChain
open Cert.AttentionStep Cert.AttentionRow

variable [Cert.KernelIdeal.Facts]

theorem origin2 : (![0, 0] : Fin 2 → Nat) = fun _ => 0 := funext fun a => by fin_cases a <;> rfl
theorem origin1 : (![0] : Fin 1 → Nat) = fun _ => 0 := funext fun a => by fin_cases a <;> rfl

/-- The projected query row: `(x0 · w + b) (r, d) = ∑ e, x0 (r, e) * w (e, d) + b d`. -/
theorem query_apply (x0 : Vec Ideal S512x256 .f32) (w : Vec Ideal S256x256 .f32) (b : Vec Ideal S256 .f32)
    (r : Fin 512) (d : Fin 256) :
    k1_pay2 x0 w b (ix2 r d) = (∑ e : Fin 256, x0 (ix2 r e) * w (ix2 e d)) + b (ix1 d) := by
  unfold k1_pay2
  show matmul (F := Ideal) dot_S512x256_S256x256_S512x256_1_0_0_1_n_n none x0 (shapeCast S256x256 w shapeCasts_S256x256_S256x256)
      (constant (F := Ideal) S512x256 .f32 0x00000000#32) (ix2 r d)
    + broadcastTo S512x256 (shapeCast S1x256 b shapeCasts_S256_S1x256) broadcasts_S1x256_S512x256 (ix2 r d) = _
  rw [shapeCast_self, Cert.LibDenseT.rowDown_apply, Cert.LibDenseT.vecAsRow_apply]
  exact congrArg (· + b (ix1 d)) (Cert.LibContractPlain.matmulPlain_zero_apply 512 256 256 _ none x0 w r d)

/-- The key and value rows numbered over all chunks; outside the 8192 rows the value is irrelevant. -/
def rowsOf (K : Fin 8192 → Fin 256 → ℝ) (j : ℕ) : Fin 256 → ℝ := if h : j < 8192 then K ⟨j, h⟩ else fun _ => 0

theorem rowsOf_val (K : Fin 8192 → Fin 256 → ℝ) (j : Fin 8192) : rowsOf K j.val = K j := dif_pos j.isLt

/-- A chunk of 1024 rows loaded at row offset `off` reads, at `(j, d)`, row `off + j` of the array. -/
theorem chunk_apply {φ : EltTy} (x : Vec Ideal S8192x256 φ) (off : ℕ) (inb) (j : Fin 1024) (d : Fin 256)
    (h : off + j.val < 8192) :
    View.ld x (Rect.unit (s := S8192x256) ![off, 0] S1024x256.size inb) (ix2 j d) = x (ix2 ⟨off + j.val, h⟩ d) := by
  show x ((Rect.unit (s := S8192x256) ![off, 0] S1024x256.size inb).emb (ix2 j d)) = _
  refine congrArg x (funext fun a => Fin.ext ?_)
  match a with
  | ⟨0, _⟩ => show off + 1 * j.val = off + j.val; omega
  | ⟨1, _⟩ => show 0 + 1 * d.val = d.val; omega

/-- Chunk `n` of the keys, as the body names it, holds the real key rows `n * 1024 + j`. -/
theorem keys_chunk (x3 : Vec Ideal S8192x256 .f32) (K : Fin 8192 → Fin 256 → ℝ)
    (hK : ∀ (j : Fin 8192) (d : Fin 256), x3 (ix2 j d) = ((K j d : ℝ) : EReal)) (n : ℕ) (hn : n < 8) (inb)
    (j : Fin 1024) (d : Fin 256) :
    keysOf (View.ld x3 (Rect.unit (s := S8192x256) ![n * 1024, 0] S1024x256.size inb)) (ix2 j d)
      = ((rowsOf K (n * 1024 + j.val) d : ℝ) : EReal) := by
  have h : n * 1024 + j.val < 8192 := by have := j.isLt; omega
  unfold keysOf
  rw [shapeCast_self, chunk_apply x3 (n * 1024) inb j d h, hK]
  unfold rowsOf
  rw [dif_pos h]

/-- Chunk `n` of the values. -/
theorem vals_chunk (x4 : Vec Ideal S8192x256 .bf16) (V : Fin 8192 → Fin 256 → ℝ)
    (hV : ∀ (j : Fin 8192) (c : Fin 256), x4 (ix2 j c) = ((V j c : ℝ) : EReal)) (n : ℕ) (hn : n < 8) (inb)
    (j : Fin 1024) (c : Fin 256) :
    valsOf (View.ld x4 (Rect.unit (s := S8192x256) ![n * 1024, 0] S1024x256.size inb)) (ix2 j c)
      = ((rowsOf V (n * 1024 + j.val) c : ℝ) : EReal) := by
  have h : n * 1024 + j.val < 8192 := by have := j.isLt; omega
  unfold valsOf
  rw [shapeCast_self, chunk_apply x4 (n * 1024) inb j c h, hV]
  unfold rowsOf
  rw [dif_pos h]

/-- THE BODY'S STORE at `(r, c)`: the softmax-weighted average of the value rows, for real data. -/
theorem tile_entry (x0 : Vec Ideal S512x256 .f32) (x1 : Vec Ideal S256x256 .f32) (x2 : Vec Ideal S256 .f32)
    (x3 : Vec Ideal S8192x256 .f32) (x4 : Vec Ideal S8192x256 .bf16) (r : Fin 512) (c : Fin 256)
    (qr : Fin 256 → ℝ) (K V : Fin 8192 → Fin 256 → ℝ)
    (hq : ∀ d : Fin 256, k1_pay2 (View.ld x0 r1_0) (View.ld x1 r1_1) (View.ld x2 r1_2) (ix2 r d) = ((qr d : ℝ) : EReal))
    (hK : ∀ (j : Fin 8192) (d : Fin 256), x3 (ix2 j d) = ((K j d : ℝ) : EReal))
    (hV : ∀ (j : Fin 8192) (c : Fin 256), x4 (ix2 j c) = ((V j c : ℝ) : EReal)) :
    out1_5 x0 x1 x2 x3 x4 (ix2 r c)
      = (((∑ j : Fin 8192, Real.exp (∑ d : Fin 256, qr d * K j d) * V j c)
          / (∑ j : Fin 8192, Real.exp (∑ d : Fin 256, qr d * K j d)) : ℝ) : EReal) := by
  rw [out_eq_tile, View.canon_unit_zero origin2]
  have h1 := first (k1_pay2 (View.ld x0 r1_0) (View.ld x1 r1_1) (View.ld x2 r1_2)) (keysOf (View.ld x3 r1_3)) (valsOf (View.ld x4 r1_3))
    r qr (rowsOf K) (rowsOf V) hq
    (keys_chunk x3 K hK 0 (by norm_num) inb_S8192x256_S1024x256_0_0) (vals_chunk x4 V hV 0 (by norm_num) inb_S8192x256_S1024x256_0_0)
  have h2 := step (k1_pay2 (View.ld x0 r1_0) (View.ld x1 r1_1) (View.ld x2 r1_2)) (keysOf (View.ld x3 r1_4)) (valsOf (View.ld x4 r1_4))
    r 1 qr (rowsOf K) (rowsOf V) hq
    (keys_chunk x3 K hK 1 (by norm_num) inb_S8192x256_S1024x256_1024_0) (vals_chunk x4 V hV 1 (by norm_num) inb_S8192x256_S1024x256_1024_0) _ _ _ h1
  have h3 := step (k1_pay2 (View.ld x0 r1_0) (View.ld x1 r1_1) (View.ld x2 r1_2)) (keysOf (View.ld x3 r1_5)) (valsOf (View.ld x4 r1_5))
    r 2 qr (rowsOf K) (rowsOf V) hq
    (keys_chunk x3 K hK 2 (by norm_num) inb_S8192x256_S1024x256_2048_0) (vals_chunk x4 V hV 2 (by norm_num) inb_S8192x256_S1024x256_2048_0) _ _ _ h2
  have h4 := step (k1_pay2 (View.ld x0 r1_0) (View.ld x1 r1_1) (View.ld x2 r1_2)) (keysOf (View.ld x3 r1_6)) (valsOf (View.ld x4 r1_6))
    r 3 qr (rowsOf K) (rowsOf V) hq
    (keys_chunk x3 K hK 3 (by norm_num) inb_S8192x256_S1024x256_3072_0) (vals_chunk x4 V hV 3 (by norm_num) inb_S8192x256_S1024x256_3072_0) _ _ _ h3
  have h5 := step (k1_pay2 (View.ld x0 r1_0) (View.ld x1 r1_1) (View.ld x2 r1_2)) (keysOf (View.ld x3 r1_7)) (valsOf (View.ld x4 r1_7))
    r 4 qr (rowsOf K) (rowsOf V) hq
    (keys_chunk x3 K hK 4 (by norm_num) inb_S8192x256_S1024x256_4096_0) (vals_chunk x4 V hV 4 (by norm_num) inb_S8192x256_S1024x256_4096_0) _ _ _ h4
  have h6 := step (k1_pay2 (View.ld x0 r1_0) (View.ld x1 r1_1) (View.ld x2 r1_2)) (keysOf (View.ld x3 r1_8)) (valsOf (View.ld x4 r1_8))
    r 5 qr (rowsOf K) (rowsOf V) hq
    (keys_chunk x3 K hK 5 (by norm_num) inb_S8192x256_S1024x256_5120_0) (vals_chunk x4 V hV 5 (by norm_num) inb_S8192x256_S1024x256_5120_0) _ _ _ h5
  have h7 := step (k1_pay2 (View.ld x0 r1_0) (View.ld x1 r1_1) (View.ld x2 r1_2)) (keysOf (View.ld x3 r1_9)) (valsOf (View.ld x4 r1_9))
    r 6 qr (rowsOf K) (rowsOf V) hq
    (keys_chunk x3 K hK 6 (by norm_num) inb_S8192x256_S1024x256_6144_0) (vals_chunk x4 V hV 6 (by norm_num) inb_S8192x256_S1024x256_6144_0) _ _ _ h6
  have h8 := step (k1_pay2 (View.ld x0 r1_0) (View.ld x1 r1_1) (View.ld x2 r1_2)) (keysOf (View.ld x3 r1_10)) (valsOf (View.ld x4 r1_10))
    r 7 qr (rowsOf K) (rowsOf V) hq
    (keys_chunk x3 K hK 7 (by norm_num) inb_S8192x256_S1024x256_7168_0) (vals_chunk x4 V hV 7 (by norm_num) inb_S8192x256_S1024x256_7168_0) _ _ _ h7
  refine (final r (scoreOf qr (rowsOf K)) (rowsOf V) _ _ _ h8 c).trans ?_
  simp only [scoreOf, rowsOf_val]

end Cert.AttentionTile

end
-- ==== Proof.AttentionSpec.lean ====
/-
  Unscaled dot-product attention over 8192 tokens of width 256, as one function of the nine argument arrays.

  With `q = x₁ Wqᵀ + bq`, `k = x₂ Wkᵀ + bk`, `v = x₃ Wvᵀ + bv` (three linear layers, weights stored output-major),
  the scores are `s i j = ∑ d, q i d * k j d` and the result is the softmax-weighted average of the rows of `v`:
  `out i c = (∑ j, exp (s i j) * v j c) / (∑ j, exp (s i j))`.
  The arrays hold extended reals; the function is stated over their real parts and is meant for arrays whose entries
  are all real (`AllReal`).
-/
import Mathlib.Analysis.SpecialFunctions.Exp
import Mathlib.Algebra.BigOperators.Field
import Idealize.ShloMosaic.PureOps.Ideal
import Idealize.ShloMosaic.Lib.ValueIdx

noncomputable section

open scoped BigOperators

namespace Cert.Attention

open Idealize.ShloMosaic Idealize.ShloMosaic.ValueIdx

/-- Every entry of the array is a real number. -/
def AllReal {ι : Type} (a : ι → EReal) : Prop := ∀ i, a i = ((a i).toReal : EReal)

/-- The real parts of a matrix of extended reals. -/
def re2 {n0 n1 : Nat} (a : (⟨2, ![n0, n1]⟩ : Shape).Idx → EReal) (i : Fin n0) (j : Fin n1) : ℝ := (a (ix2 i j)).toReal

/-- The real parts of a vector of extended reals. -/
def re1 {n : Nat} (a : (⟨1, ![n]⟩ : Shape).Idx → EReal) (i : Fin n) : ℝ := (a (ix1 i)).toReal

/-- A linear layer with output-major weights: `(x Wᵀ + b) i d = ∑ e, x i e * W d e + b d`. -/
def dense {n : Nat} (x : Fin n → Fin 256 → ℝ) (W : Fin 256 → Fin 256 → ℝ) (b : Fin 256 → ℝ) (i : Fin n) (d : Fin 256) : ℝ :=
  (∑ e : Fin 256, x i e * W d e) + b d

/-- The score of query row `i` against key row `j`. -/
def score (q k : Fin 8192 → Fin 256 → ℝ) (i j : Fin 8192) : ℝ := ∑ d : Fin 256, q i d * k j d

/-- The softmax-weighted average of the value rows. -/
def attend (q k v : Fin 8192 → Fin 256 → ℝ) (i : Fin 8192) (c : Fin 256) : ℝ :=
  (∑ j : Fin 8192, Real.exp (score q k i j) * v j c) / (∑ j : Fin 8192, Real.exp (score q k i j))

/-- Queries, keys and values of the nine argument arrays. -/
def queries (x1 : (⟨2, ![8192, 256]⟩ : Shape).Idx → EReal) (Wq : (⟨2, ![256, 256]⟩ : Shape).Idx → EReal)
    (bq : (⟨1, ![256]⟩ : Shape).Idx → EReal) : Fin 8192 → Fin 256 → ℝ := dense (re2 x1) (re2 Wq) (re1 bq)

/-- The whole result array: attention of the three projected inputs. The arguments are in the order of the programs'
    parameters: `x1 x2 x3 Wq bq Wk bk Wv bv`. -/
def result (x1 x2 x3 : (⟨2, ![8192, 256]⟩ : Shape).Idx → EReal) (Wq : (⟨2, ![256, 256]⟩ : Shape).Idx → EReal)
    (bq : (⟨1, ![256]⟩ : Shape).Idx → EReal) (Wk : (⟨2, ![256, 256]⟩ : Shape).Idx → EReal)
    (bk : (⟨1, ![256]⟩ : Shape).Idx → EReal) (Wv : (⟨2, ![256, 256]⟩ : Shape).Idx → EReal)
    (bv : (⟨1, ![256]⟩ : Shape).Idx → EReal) : (⟨2, ![8192, 256]⟩ : Shape).Idx → EReal :=
  fun idx => ((attend (queries x1 Wq bq) (queries x2 Wk bk) (queries x3 Wv bv) (idx 0) (idx 1) : ℝ) : EReal)

end Cert.Attention

end
-- ==== Proof.ProjectionPoint.lean ====
/-
  The arithmetic of the key/value projection at one entry of a block.

  A block of 1024 rows of the input, a 256 × 256 weight matrix stored input-major and a bias vector give the block
  of projected rows: entry (r, j) is the sum over k of the input at (r, k) times the weight at (k, j), plus the bias
  at j. The key payload is exactly this; the value payload is the same followed by a change of float format, which
  at the extended reals is the identity. When the three operands hold only real numbers the entry is the coercion
  of the real linear layer of the specification, the weight matrix read transposed.
-/
import proofs.«150723_j24369644437965_2_alg».proof.Proof.Gen.KernelIdeal.Frame
import proofs.«150723_j24369644437965_2_alg».proof.Proof.AttentionSpec
import proofs.«150723_j24369644437965_2_alg».proof.Proof.LibDenseT
import proofs.«150723_j24369644437965_2_alg».proof.Proof.LibFiniteAssoc
import Idealize.ShloMosaic.Lib.Pipeline.Value

noncomputable section

open scoped BigOperators

namespace Cert.ProjectionRegion

open Idealize.ShloMosaic Idealize.ShloMosaic.ValueIdx Idealize.ShloMosaic.TcCoe
open Cert.KernelIdeal Cert.KernelIdeal.Gen Cert.Attention

/-- The key payload at (r, j): the row of the input block against column j of the weights, plus the bias at j. -/
theorem keyPayload_apply (x0 : Vec Ideal S1024x256 .f32) (w : Vec Ideal S256x256 .f32) (b : Vec Ideal S256 .f32)
    (r : Fin 1024) (j : Fin 256) :
    k0_pay1 x0 w b (ix2 r j) = (∑ k : Fin 256, x0 (ix2 r k) * w (ix2 k j)) + b (ix1 j) := by
  unfold k0_pay1
  refine (addf_apply _ _ _).trans ?_
  refine congrArg₂ (· + ·) ?_ ?_
  · rw [shapeCast_self]
    exact Cert.LibContractPlain.matmulPlain_zero_apply 1024 256 256
      dot_S1024x256_S256x256_S1024x256_1_0_0_1_n_n.wf none x0 w r j
  · refine (Cert.LibDenseT.rowDown_apply _ _ r j).trans ?_
    exact Cert.LibDenseT.vecAsRow_apply b _ 0 j

/-- The value payload at (r, j): the same entry; the change of float format is the identity on extended reals. -/
theorem valuePayload_apply (x0 : Vec Ideal S1024x256 .f32) (w : Vec Ideal S256x256 .f32) (b : Vec Ideal S256 .f32)
    (r : Fin 1024) (j : Fin 256) :
    k0_pay2 x0 w b (ix2 r j) = (∑ k : Fin 256, x0 (ix2 r k) * w (ix2 k j)) + b (ix1 j) := by
  unfold k0_pay2
  refine (truncf_apply (ψ := .bf16) _ bitsLt_bf16_f32 _).trans ?_
  refine (addf_apply _ _ _).trans ?_
  refine congrArg₂ (· + ·) ?_ ?_
  · rw [shapeCast_self]
    exact Cert.LibContractPlain.matmulPlain_zero_apply 1024 256 256
      dot_S1024x256_S256x256_S1024x256_1_0_0_1_n_n.wf none x0 w r j
  · refine (Cert.LibDenseT.rowDown_apply _ _ r j).trans ?_
    exact Cert.LibDenseT.vecAsRow_apply b _ 0 j

/-- Real operands give a real entry: the sum of products plus the bias, computed in the extended reals from
    coerced reals, is the coercion of the same expression over the reals. -/
theorem coe_dense_entry (x : Fin 256 → ℝ) (w : Fin 256 → ℝ) (b : ℝ) :
    (∑ k : Fin 256, ((x k : ℝ) : EReal) * ((w k : ℝ) : EReal)) + ((b : ℝ) : EReal)
      = (((∑ k : Fin 256, x k * w k) + b : ℝ) : EReal) := by
  simp only [← EReal.coe_mul]
  rw [Cert.LibFiniteAssoc.coe_sum_real, ← EReal.coe_add]

/-- THE ENTRY OVER REAL OPERANDS. Row r of the block is row i of an array A of reals, the weights are an array W of
    reals and the bias an array B of reals: the sum of products plus the bias is the coercion of the specification's
    linear layer of the real parts at (i, j), the weights read transposed. -/
theorem entry_of_real_operands
    (A : S8192x256.Idx → EReal) (W : S256x256.Idx → EReal) (B : S256.Idx → EReal)
    (hA : AllReal A) (hW : AllReal W) (hB : AllReal B)
    (x0 : Vec Ideal S1024x256 .f32) (w : Vec Ideal S256x256 .f32) (b : Vec Ideal S256 .f32)
    (r : Fin 1024) (j : Fin 256) (i : Fin 8192)
    (hx : ∀ k : Fin 256, x0 (ix2 r k) = A (ix2 i k))
    (hw : ∀ k : Fin 256, w (ix2 k j) = W (ix2 k j)) (hb : b (ix1 j) = B (ix1 j)) :
    (∑ k : Fin 256, x0 (ix2 r k) * w (ix2 k j)) + b (ix1 j)
      = ((dense (re2 A) (fun d e => re2 W e d) (re1 B) i j : ℝ) : EReal) := by
  have e1 : ∀ k : Fin 256, x0 (ix2 r k) * w (ix2 k j)
      = (((A (ix2 i k)).toReal : ℝ) : EReal) * (((W (ix2 k j)).toReal : ℝ) : EReal) := fun k => by
    rw [hx k, hw k]; exact congrArg₂ (· * ·) (hA _) (hW _)
  have e2 : b (ix1 j) = (((B (ix1 j)).toReal : ℝ) : EReal) := hb.trans (hB _)
  rw [Finset.sum_congr rfl (fun k _ => e1 k), e2,
    coe_dense_entry (fun k => (A (ix2 i k)).toReal) (fun k => (W (ix2 k j)).toReal) (B (ix1 j)).toReal]
  rfl

end Cert.ProjectionRegion

end
-- ==== Proof.AttentionRegion.lean ====
/-
  The attention call as a whole: the result array after all sixteen query tiles.

  Point `t` of the grid computes rows `512 t … 512 t + 511` of the result from the same rows of the first input and
  from the whole weight, bias, key and value arrays. Every entry of a tile is the softmax-weighted average of the
  value rows (the kernel body's reading), a function of the arrays that does not depend on the tile; the sixteen tiles
  cover the result, so the result array is that function, index by index.
-/
import proofs.«150723_j24369644437965_2_alg».proof.Proof.AttentionTile
import proofs.«150723_j24369644437965_2_alg».proof.Proof.AttentionSpec
import proofs.«150723_j24369644437965_2_alg».proof.Proof.ProjectionPoint
import Idealize.ShloMosaic.Lib.Pipeline.Value

set_option maxRecDepth 16384

noncomputable section

open scoped BigOperators

namespace Cert.AttentionRegion

open Idealize.ShloMosaic Idealize.ShloMosaic.ValueIdx Idealize.ShloMosaic.TcCoe Idealize.SL.Sem
open Idealize.ShloMosaic.Pipeline (Dat)
open Cert.KernelIdeal Cert.KernelIdeal.Gen Cert.Attention Cert.AttentionTile Cert.LibFiniteAssoc

variable (V : (c : Dev nD) → (b : Ref sig .tc) → Buf (Elt Ideal) ((c : Thread nD τ).loc b))

/-- The result as one function of the five arrays the call reads: the input rows `A0`, the input-major projection
    weights `A1`, the bias `A2`, the keys `A3`, the values `A4`. -/
def attnOf (A0 : S8192x256.Idx → EReal) (A1 : S256x256.Idx → EReal) (A2 : S256.Idx → EReal)
    (A3 A4 : S8192x256.Idx → EReal) : S8192x256.Idx → EReal :=
  fun idx => ((attend (dense (re2 A0) (fun d e => re2 A1 e d) (re1 A2)) (re2 A3) (re2 A4) (idx 0) (idx 1) : ℝ) : EReal)

/-- The index maps over the sixteen points: the input rows and the result move with the point, the rest stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block of the result is some point's. -/
theorem idx_onto : ∀ q0 : Fin 16, ∃ t : Fin cfg1.N, win1_5.index t = ![q0.val, 0] :=
  (by decide +kernel : ∀ q0 : Fin 16, ∃ t : Fin grid1.N, win1_5.index t = ![q0.val, 0])

/-! ## The input blocks, read where they lie in their arrays -/

/-- The input tile at point `t` holds rows `512 t + r` of the input array. -/
theorem rows_block (c : Dev nD) (t : Fin cfg1.N) (x : S512x256.Idx) (k : S8192x256.Idx)
    (hk0 : (k 0).val = t.val * 512 + (x 0).val) (hk1 : (k 1).val = (x 1).val) :
    (iblk1 V c 0 t : Vec Ideal S512x256 .f32) x = (V c main_arg0 : S8192x256.Idx → EReal) k := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 512 + 1 * (x 0).val = (k 0).val; rw [e0, hk0]; omega
  | ⟨1, _⟩ => show win1_0.index t (1 : Fin 2) * 256 + 1 * (x 1).val = (k 1).val; rw [e1, hk1]; omega

/-- The weight window is the whole weight array at every point. -/
theorem weights_block (c : Dev nD) (t : Fin cfg1.N) (x : S256x256.Idx) :
    (iblk1 V c 1 t : Vec Ideal S256x256 .f32) x = (V c main_v0 : S256x256.Idx → EReal) x := by
  obtain ⟨-, -, e0, e1, -⟩ := idx_facts t
  unfold iblk1
  rw [View.read_apply]
  show V c main_v0 _ = V c main_v0 _
  congr 1
  funext a
  apply Fin.ext
  match a with
  | ⟨0, _⟩ => show win1_1.index t (0 : Fin 2) * 256 + 1 * (x 0).val = (x 0).val; rw [e0]; omega
  | ⟨1, _⟩ => show win1_1.index t (1 : Fin 2) * 256 + 1 * (x 1).val = (x 1).val; rw [e1]; omega

/-- The bias window is the whole bias vector. -/
theorem bias_block (c : Dev nD) (t : Fin cfg1.N) (x : S256.Idx) :
    (iblk1 V c 2 t : Vec Ideal S256 .f32) x = (V c main_arg4 : S256.Idx → EReal) x := by
  obtain ⟨-, -, -, -, e0, -⟩ := idx_facts t
  unfold iblk1
  rw [View.read_apply]
  show V c main_arg4 _ = V c main_arg4 _
  congr 1
  funext a
  apply Fin.ext
  match a with
  | ⟨0, _⟩ => show win1_2.index t (0 : Fin 1) * 256 + 1 * (x 0).val = (x 0).val; rw [e0]; omega

/-- The key window is the whole key array. -/
theorem keys_block (c : Dev nD) (t : Fin cfg1.N) (x : S8192x256.Idx) :
    (iblk1 V c 3 t : Vec Ideal S8192x256 .f32) x = (V c main_v3_0 : S8192x256.Idx → EReal) x := by
  obtain ⟨-, -, -, -, -, e0, e1, -⟩ := idx_facts t
  unfold iblk1
  rw [View.read_apply]
  show V c main_v3_0 _ = V c main_v3_0 _
  congr 1
  funext a
  apply Fin.ext
  match a with
  | ⟨0, _⟩ => show win1_3.index t (0 : Fin 2) * 8192 + 1 * (x 0).val = (x 0).val; rw [e0]; omega
  | ⟨1, _⟩ => show win1_3.index t (1 : Fin 2) * 256 + 1 * (x 1).val = (x 1).val; rw [e1]; omega

/-- The value window is the whole value array. -/
theorem values_block (c : Dev nD) (t : Fin cfg1.N) (x : S8192x256.Idx) :
    (iblk1 V c 4 t : Vec Ideal S8192x256 .bf16) x = (V c main_v3_1 : S8192x256.Idx → EReal) x := by
  obtain ⟨-, -, -, -, -, -, -, e0, e1, -⟩ := idx_facts t
  unfold iblk1
  rw [View.read_apply]
  show V c main_v3_1 _ = V c main_v3_1 _
  congr 1
  funext a
  apply Fin.ext
  match a with
  | ⟨0, _⟩ => show win1_4.index t (0 : Fin 2) * 8192 + 1 * (x 0).val = (x 0).val; rw [e0]; omega
  | ⟨1, _⟩ => show win1_4.index t (1 : Fin 2) * 256 + 1 * (x 1).val = (x 1).val; rw [e1]; omega

/-! ## What a point writes back -/

/-- THE PROJECTED QUERY ROW OVER REAL OPERANDS. Row `r` of the tile is row `i` of an array `A` of reals, the weights
    are an array `W` of reals and the bias an array `B` of reals: the projected row is the specification's linear layer of
    the real parts at row `i`, the weights read transposed. -/
theorem query_real (A : S8192x256.Idx → EReal) (W : S256x256.Idx → EReal) (B : S256.Idx → EReal)
    (hA : AllReal A) (hW : AllReal W) (hB : AllReal B)
    (x0 : Vec Ideal S512x256 .f32) (w : Vec Ideal S256x256 .f32) (b : Vec Ideal S256 .f32) (r : Fin 512) (i : Fin 8192)
    (hx : ∀ k : Fin 256, x0 (ix2 r k) = A (ix2 i k))
    (hw : ∀ k j : Fin 256, w (ix2 k j) = W (ix2 k j)) (hb : ∀ j : Fin 256, b (ix1 j) = B (ix1 j)) (d : Fin 256) :
    k1_pay2 (View.ld x0 r1_0) (View.ld w r1_1) (View.ld b r1_2) (ix2 r d)
      = ((dense (re2 A) (fun d e => re2 W e d) (re1 B) i d : ℝ) : EReal) := by
  rw [View.ld_unit_zero (S := S512x256) origin2, View.ld_unit_zero (S := S256x256) origin2,
    View.ld_unit_zero (S := S256) origin1, query_apply]
  have e1 : ∀ k : Fin 256, x0 (ix2 r k) * w (ix2 k d)
      = (((A (ix2 i k)).toReal : ℝ) : EReal) * (((W (ix2 k d)).toReal : ℝ) : EReal) := fun k => by
    rw [hx k, hw k d]; exact congrArg₂ (· * ·) (hA _) (hW _)
  have e2 : b (ix1 d) = (((B (ix1 d)).toReal : ℝ) : EReal) := (hb d).trans (hB _)
  rw [Finset.sum_congr rfl (fun k _ => e1 k), e2,
    Cert.ProjectionRegion.coe_dense_entry (fun k => (A (ix2 i k)).toReal) (fun k => (W (ix2 k d)).toReal) (B (ix1 d)).toReal]
  rfl

/-- The body's store at the tile entry `y` lying at the array entry `i`. -/
theorem entry_at (c : Dev nD) (h0 : AllReal (V c main_arg0 : S8192x256.Idx → EReal))
    (h1 : AllReal (V c main_v0 : S256x256.Idx → EReal)) (h2 : AllReal (V c main_arg4 : S256.Idx → EReal))
    (h3 : AllReal (V c main_v3_0 : S8192x256.Idx → EReal)) (h4 : AllReal (V c main_v3_1 : S8192x256.Idx → EReal))
    (t : Fin cfg1.N) (y : S512x256.Idx) (i : S8192x256.Idx)
    (hi0 : (i 0).val = t.val * 512 + (y 0).val) (hi1 : (i 1).val = (y 1).val) :
    out1_5 (iblk1 V c 0 t) (iblk1 V c 1 t) (iblk1 V c 2 t) (iblk1 V c 3 t) (iblk1 V c 4 t) y
      = attnOf (V c main_arg0) (V c main_v0) (V c main_arg4) (V c main_v3_0) (V c main_v3_1) i := by
  have hi : i 1 = y 1 := Fin.ext hi1
  refine (congrArg (out1_5 (iblk1 V c 0 t) (iblk1 V c 1 t) (iblk1 V c 2 t) (iblk1 V c 3 t) (iblk1 V c 4 t))
    (eq_ix2 y)).trans ?_
  refine (tile_entry (iblk1 V c 0 t) (iblk1 V c 1 t) (iblk1 V c 2 t) (iblk1 V c 3 t) (iblk1 V c 4 t) (y 0) (y 1)
    (dense (re2 (V c main_arg0 : S8192x256.Idx → EReal)) (fun d e => re2 (V c main_v0 : S256x256.Idx → EReal) e d)
      (re1 (V c main_arg4 : S256.Idx → EReal)) (i 0))
    (re2 (V c main_v3_0 : S8192x256.Idx → EReal)) (re2 (V c main_v3_1 : S8192x256.Idx → EReal)) ?_ ?_ ?_).trans ?_
  · intro d
    exact query_real (V c main_arg0) (V c main_v0) (V c main_arg4) h0 h1 h2 (iblk1 V c 0 t) (iblk1 V c 1 t) (iblk1 V c 2 t)
      (y 0) (i 0) (fun k => rows_block V c t (ix2 (y 0) k) (ix2 (i 0) k) hi0 rfl)
      (fun k j => weights_block V c t (ix2 k j)) (fun j => bias_block V c t (ix1 j)) d
  · intro j d
    exact (keys_block V c t (ix2 j d)).trans (h3 _)
  · intro j d
    exact (values_block V c t (ix2 j d)).trans (h4 _)
  · show ((attend _ _ _ (i 0) (y 1) : ℝ) : EReal) = ((attend _ _ _ (i 0) (i 1) : ℝ) : EReal)
    rw [hi]

/-- WHAT POINT `t` WRITES BACK is block `t` of the one function of the arrays. -/
theorem flushed_eq (c : Dev nD) (h0 : AllReal (V c main_arg0 : S8192x256.Idx → EReal))
    (h1 : AllReal (V c main_v0 : S256x256.Idx → EReal)) (h2 : AllReal (V c main_arg4 : S256.Idx → EReal))
    (h3 : AllReal (V c main_v3_0 : S8192x256.Idx → EReal)) (h4 : AllReal (V c main_v3_1 : S8192x256.Idx → EReal))
    (t : Fin cfg1.N) :
    (dat1 (F := Ideal) V c).flushed 5 t = ((cfg1.win 5).blk t).view.read (Elt Ideal)
      (attnOf (V c main_arg0) (V c main_v0) (V c main_arg4) (V c main_v3_0) (V c main_v3_1)) := by
  show (cfg1.win 5).cut (grid1.coords t) ((dat1 (F := Ideal) V c).after 5 t) = _
  rw [after1_5]
  obtain ⟨-, -, -, -, -, -, -, -, -, e0, e1⟩ := idx_facts t
  funext y
  show out1_5 (iblk1 V c 0 t) (iblk1 V c 1 t) (iblk1 V c 2 t) (iblk1 V c 3 t) (iblk1 V c 4 t)
      ((cfg1.win 5).xinj (grid1.coords t) y)
    = attnOf (V c main_arg0) (V c main_v0) (V c main_arg4) (V c main_v3_0) (V c main_v3_1) (((cfg1.win 5).blk t).view.emb y)
  refine entry_at V c h0 h1 h2 h3 h4 t _ _ ?_ ?_
  · show win1_5.index t (0 : Fin 2) * 512 + 1 * (y 0).val = t.val * 512 + (y 0).val
    rw [e0]; omega
  · show win1_5.index t (1 : Fin 2) * 256 + 1 * (y 1).val = (y 1).val
    rw [e1]; omega

/-- An index of the result is in point `t`'s block iff each coordinate is in the block's range on its axis. -/
theorem mem_blk (t : Fin cfg1.N) (i : S8192x256.Idx) :
    i ∈ ((cfg1.win 5).blk t).view.set ↔ ∀ a : Fin 2, win1_5.index t a * S512x256.size a ≤ (i a).val
      ∧ (i a).val < win1_5.index t a * S512x256.size a + S512x256.size a := by
  show i ∈ ((View.whole main_v4).slice (win1_5.rect t)).set ↔ _
  rw [View.set_slice_whole, Rect.mem_set_unit]
  exact Iff.rfl

/-- Every index of the result is in some point's block: row `i` belongs to point `i / 512`. -/
theorem cover (i : S8192x256.Idx) :
    ∃ t : Fin cfg1.N, (cfg1.win 5).flush t = true ∧ i ∈ ((cfg1.win 5).blk t).view.set := by
  have hi0 : (i 0).val < 8192 := (i 0).isLt
  have hi1 : (i 1).val < 256 := (i 1).isLt
  obtain ⟨t, ht⟩ := idx_onto ⟨(i 0).val / 512, by omega⟩
  have q0 : win1_5.index t (0 : Fin 2) = (i 0).val / 512 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 256 ≤ (i 1).val ∧ (i 1).val < win1_5.index t (1 : Fin 2) * 256 + 256; omega

/-- THE RESULT ARRAY after the call: the one function of the five arrays it reads. -/
theorem result_array (c : Dev nD) (h0 : AllReal (V c main_arg0 : S8192x256.Idx → EReal))
    (h1 : AllReal (V c main_v0 : S256x256.Idx → EReal)) (h2 : AllReal (V c main_arg4 : S256.Idx → EReal))
    (h3 : AllReal (V c main_v3_0 : S8192x256.Idx → EReal)) (h4 : AllReal (V c main_v3_1 : S8192x256.Idx → EReal)) :
    (dat1 (F := Ideal) V c).arrAt 5 cfg1.N
      = attnOf (V c main_arg0) (V c main_v0) (V c main_arg4) (V c main_v3_0) (V c main_v3_1) :=
  (dat1 (F := Ideal) V c).arrAt_eq_of_cover 5 _ (fun t _ => flushed_eq V c h0 h1 h2 h3 h4 t) cover

end Cert.AttentionRegion

end
-- ==== Proof.ProjectionRegion.lean ====
/-
  The key and value arrays the projection region leaves.

  The region runs over 8 grid points. Point t reads rows 1024 t … 1024 t + 1023 of the two inputs, all of the two
  weight matrices and bias vectors, and writes rows 1024 t … 1024 t + 1023 of the key array and of the value array:
  entry (r, j) of the written block is the sum over k of the input row r against column j of the weights, plus the
  bias at j. The blocks of the 8 points tile the 8192 rows, so after the region each output array is one function of
  the arrays found at entry: the specification's linear layer of their real parts, the weights read transposed.
-/
import proofs.«150723_j24369644437965_2_alg».proof.Proof.ProjectionPoint

set_option maxRecDepth 16384

noncomputable section

open scoped BigOperators

namespace Cert.ProjectionRegion

open Idealize.ShloMosaic Idealize.ShloMosaic.ValueIdx Idealize.ShloMosaic.TcCoe Idealize.SL.Sem
open Idealize.ShloMosaic.Pipeline (Dat)
open Cert.KernelIdeal Cert.KernelIdeal.Gen Cert.Attention

variable (V : (c : Dev nD) → (b : Ref sig .tc) → Buf (Elt Ideal) ((c : Thread nD τ).loc b))

theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The printed index maps over the grid: the two inputs and the two outputs are at row block t, column block 0;
    the weights and biases are always at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks, read where they lie in their arrays -/

/-- Row r of the key input's block at point t is row 1024 t + r of the array. -/
theorem keyInput_block (c : Dev nD) (t : Fin cfg0.N) (x : S1024x256.Idx) (k : S8192x256.Idx)
    (hk0 : (k 0).val = t.val * 1024 + (x 0).val) (hk1 : (k 1).val = (x 1).val) :
    (iblk0 V c 0 t : Vec Ideal S1024x256 .f32) x = (V c main_arg1 : S8192x256.Idx → EReal) k := by
  obtain ⟨e0, e1, -⟩ := index_facts t
  unfold iblk0
  rw [View.read_apply]
  show V c main_arg1 _ = V c main_arg1 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- Row r of the value input's block at point t is row 1024 t + r of the array. -/
theorem valueInput_block (c : Dev nD) (t : Fin cfg0.N) (x : S1024x256.Idx) (k : S8192x256.Idx)
    (hk0 : (k 0).val = t.val * 1024 + (x 0).val) (hk1 : (k 1).val = (x 1).val) :
    (iblk0 V c 1 t : Vec Ideal S1024x256 .f32) x = (V c main_arg2 : S8192x256.Idx → EReal) k := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 256 + 1 * (x 1).val = (k 1).val; rw [e1, hk1]; omega

/-- The key weights' block at any point is the whole matrix. -/
theorem keyWeights_block (c : Dev nD) (t : Fin cfg0.N) (x : S256x256.Idx) :
    (iblk0 V c 2 t : Vec Ideal S256x256 .f32) x = (V c main_v1 : S256x256.Idx → EReal) x := by
  obtain ⟨-, -, -, -, e0, e1, -⟩ := index_facts t
  unfold iblk0
  rw [View.read_apply]
  show V c main_v1 _ = V c main_v1 _
  congr 1
  funext a
  apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- The key bias's block at any point is the whole vector. -/
theorem keyBias_block (c : Dev nD) (t : Fin cfg0.N) (x : S256.Idx) :
    (iblk0 V c 3 t : Vec Ideal S256 .f32) x = (V c main_arg6 : S256.Idx → EReal) x := by
  obtain ⟨-, -, -, -, -, -, e0, -⟩ := index_facts t
  unfold iblk0
  rw [View.read_apply]
  show V c main_arg6 _ = V c main_arg6 _
  congr 1
  funext a
  apply Fin.ext
  match a with
  | ⟨0, _⟩ => show win0_3.index t (0 : Fin 1) * 256 + 1 * (x 0).val = (x 0).val; rw [e0]; omega

/-- The value weights' block at any point is the whole matrix. -/
theorem valueWeights_block (c : Dev nD) (t : Fin cfg0.N) (x : S256x256.Idx) :
    (iblk0 V c 4 t : Vec Ideal S256x256 .f32) x = (V c main_v2 : S256x256.Idx → EReal) x := by
  obtain ⟨-, -, -, -, -, -, -, e0, e1, -⟩ := index_facts t
  unfold iblk0
  rw [View.read_apply]
  show V c main_v2 _ = V c main_v2 _
  congr 1
  funext a
  apply Fin.ext
  match a with
  | ⟨0, _⟩ => show win0_4.index t (0 : Fin 2) * 256 + 1 * (x 0).val = (x 0).val; rw [e0]; omega
  | ⟨1, _⟩ => show win0_4.index t (1 : Fin 2) * 256 + 1 * (x 1).val = (x 1).val; rw [e1]; omega

/-- The value bias's block at any point is the whole vector. -/
theorem valueBias_block (c : Dev nD) (t : Fin cfg0.N) (x : S256.Idx) :
    (iblk0 V c 5 t : Vec Ideal S256 .f32) x = (V c main_arg8 : S256.Idx → EReal) x := by
  obtain ⟨-, -, -, -, -, -, -, -, -, e0, -⟩ := index_facts t
  unfold iblk0
  rw [View.read_apply]
  show V c main_arg8 _ = V c main_arg8 _
  congr 1
  funext a
  apply Fin.ext
  match a with
  | ⟨0, _⟩ => show win0_5.index t (0 : Fin 1) * 256 + 1 * (x 0).val = (x 0).val; rw [e0]; omega

/-! ## What a point writes back -/

/-- The key array the region leaves, as a function of the arrays found at entry. -/
abbrev keysOf (c : Dev nD) : S8192x256.Idx → EReal := fun idx =>
  ((dense (re2 (V c main_arg1 : S8192x256.Idx → EReal)) (fun d e => re2 (V c main_v1 : S256x256.Idx → EReal) e d)
    (re1 (V c main_arg6 : S256.Idx → EReal)) (idx 0) (idx 1) : ℝ) : EReal)

/-- The value array the region leaves, as a function of the arrays found at entry. -/
abbrev valuesOf (c : Dev nD) : S8192x256.Idx → EReal := fun idx =>
  ((dense (re2 (V c main_arg2 : S8192x256.Idx → EReal)) (fun d e => re2 (V c main_v2 : S256x256.Idx → EReal) e d)
    (re1 (V c main_arg8 : S256.Idx → EReal)) (idx 0) (idx 1) : ℝ) : EReal)

/-- The key payload of the blocks at point t, at the block entry y lying at the array entry i. -/
theorem key_entry_at (c : Dev nD) (hx : AllReal (V c main_arg1 : S8192x256.Idx → EReal))
    (hW : AllReal (V c main_v1 : S256x256.Idx → EReal)) (hb : AllReal (V c main_arg6 : S256.Idx → EReal))
    (t : Fin cfg0.N) (y : S1024x256.Idx) (i : S8192x256.Idx)
    (h0 : (i 0).val = t.val * 1024 + (y 0).val) (h1 : (i 1).val = (y 1).val) :
    k0_pay1 (iblk0 V c 0 t) (iblk0 V c 2 t) (iblk0 V c 3 t) y = keysOf V c i := by
  have hi : i 1 = y 1 := Fin.ext h1
  refine (congrArg (k0_pay1 (iblk0 V c 0 t) (iblk0 V c 2 t) (iblk0 V c 3 t)) (eq_ix2 y)).trans ?_
  refine (keyPayload_apply (iblk0 V c 0 t) (iblk0 V c 2 t) (iblk0 V c 3 t) (y 0) (y 1)).trans ?_
  refine (entry_of_real_operands (V c main_arg1) (V c main_v1) (V c main_arg6) hx hW hb
    (iblk0 V c 0 t) (iblk0 V c 2 t) (iblk0 V c 3 t) (y 0) (y 1) (i 0) ?_ ?_ ?_).trans ?_
  · intro k; exact keyInput_block V c t (ix2 (y 0) k) (ix2 (i 0) k) h0 rfl
  · intro k; exact keyWeights_block V c t (ix2 k (y 1))
  · exact keyBias_block V c t (ix1 (y 1))
  · show ((dense _ _ _ (i 0) (y 1) : ℝ) : EReal) = ((dense _ _ _ (i 0) (i 1) : ℝ) : EReal)
    rw [hi]

/-- The value payload of the blocks at point t, at the block entry y lying at the array entry i. -/
theorem value_entry_at (c : Dev nD) (hx : AllReal (V c main_arg2 : S8192x256.Idx → EReal))
    (hW : AllReal (V c main_v2 : S256x256.Idx → EReal)) (hb : AllReal (V c main_arg8 : S256.Idx → EReal))
    (t : Fin cfg0.N) (y : S1024x256.Idx) (i : S8192x256.Idx)
    (h0 : (i 0).val = t.val * 1024 + (y 0).val) (h1 : (i 1).val = (y 1).val) :
    k0_pay2 (iblk0 V c 1 t) (iblk0 V c 4 t) (iblk0 V c 5 t) y = valuesOf V c i := by
  have hi : i 1 = y 1 := Fin.ext h1
  refine (congrArg (k0_pay2 (iblk0 V c 1 t) (iblk0 V c 4 t) (iblk0 V c 5 t)) (eq_ix2 y)).trans ?_
  refine (valuePayload_apply (iblk0 V c 1 t) (iblk0 V c 4 t) (iblk0 V c 5 t) (y 0) (y 1)).trans ?_
  refine (entry_of_real_operands (V c main_arg2) (V c main_v2) (V c main_arg8) hx hW hb
    (iblk0 V c 1 t) (iblk0 V c 4 t) (iblk0 V c 5 t) (y 0) (y 1) (i 0) ?_ ?_ ?_).trans ?_
  · intro k; exact valueInput_block V c t (ix2 (y 0) k) (ix2 (i 0) k) h0 rfl
  · intro k; exact valueWeights_block V c t (ix2 k (y 1))
  · exact valueBias_block V c t (ix1 (y 1))
  · show ((dense _ _ _ (i 0) (y 1) : ℝ) : EReal) = ((dense _ _ _ (i 0) (i 1) : ℝ) : EReal)
    rw [hi]

/-- WHAT POINT t WRITES BACK to the key array is block t of `keysOf`. -/
theorem keys_flushed (c : Dev nD) (hx : AllReal (V c main_arg1 : S8192x256.Idx → EReal))
    (hW : AllReal (V c main_v1 : S256x256.Idx → EReal)) (hb : AllReal (V c main_arg6 : S256.Idx → EReal))
    (t : Fin cfg0.N) :
    (dat0 (F := Ideal) V c).flushed 6 t = ((cfg0.win 6).blk t).view.read (Elt Ideal) (keysOf V c) := by
  show (cfg0.win 6).cut (grid0.coords t) ((dat0 (F := Ideal) V c).after 6 t) = _
  rw [after0_6]
  unfold out0_6
  rw [View.canon_unit_zero zeroOffsets2]
  simp only [View.ld_unit_zero (S := S1024x256) zeroOffsets2, View.ld_unit_zero (S := S256x256) zeroOffsets2,
    View.ld_unit_zero (S := S256) zeroOffsets1]
  obtain ⟨-, -, -, -, -, -, -, -, -, -, e0, e1, -⟩ := index_facts t
  funext y
  show k0_pay1 (iblk0 V c 0 t) (iblk0 V c 2 t) (iblk0 V c 3 t) ((cfg0.win 6).xinj (grid0.coords t) y)
    = keysOf V c (((cfg0.win 6).blk t).view.emb y)
  refine key_entry_at V c hx hW hb t _ _ ?_ ?_
  · show win0_6.index t (0 : Fin 2) * 1024 + 1 * (y 0).val = t.val * 1024 + (y 0).val
    rw [e0]; omega
  · show win0_6.index t (1 : Fin 2) * 256 + 1 * (y 1).val = (y 1).val
    rw [e1]; omega

/-- WHAT POINT t WRITES BACK to the value array is block t of `valuesOf`. -/
theorem values_flushed (c : Dev nD) (hx : AllReal (V c main_arg2 : S8192x256.Idx → EReal))
    (hW : AllReal (V c main_v2 : S256x256.Idx → EReal)) (hb : AllReal (V c main_arg8 : S256.Idx → EReal))
    (t : Fin cfg0.N) :
    (dat0 (F := Ideal) V c).flushed 7 t = ((cfg0.win 7).blk t).view.read (Elt Ideal) (valuesOf V c) := by
  show (cfg0.win 7).cut (grid0.coords t) ((dat0 (F := Ideal) V c).after 7 t) = _
  rw [after0_7]
  unfold out0_7
  rw [View.canon_unit_zero zeroOffsets2]
  simp only [View.ld_unit_zero (S := S1024x256) zeroOffsets2, View.ld_unit_zero (S := S256x256) zeroOffsets2,
    View.ld_unit_zero (S := S256) zeroOffsets1]
  obtain ⟨-, -, -, -, -, -, -, -, -, -, -, -, e0, e1⟩ := index_facts t
  funext y
  show k0_pay2 (iblk0 V c 1 t) (iblk0 V c 4 t) (iblk0 V c 5 t) ((cfg0.win 7).xinj (grid0.coords t) y)
    = valuesOf V c (((cfg0.win 7).blk t).view.emb y)
  refine value_entry_at V c hx hW hb t _ _ ?_ ?_
  · show win0_7.index t (0 : Fin 2) * 1024 + 1 * (y 0).val = t.val * 1024 + (y 0).val
    rw [e0]; omega
  · show win0_7.index t (1 : Fin 2) * 256 + 1 * (y 1).val = (y 1).val
    rw [e1]; omega

/-! ## The blocks tile the arrays -/

/-- An entry of the key array is in point t's block iff each coordinate is in the block's range on its axis. -/
theorem mem_keys_block (t : Fin cfg0.N) (i : S8192x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v3_0).slice (win0_6.rect t)).set ↔ _
  rw [View.set_slice_whole, Rect.mem_set_unit]
  exact Iff.rfl

/-- An entry of the value array is in point t's block iff each coordinate is in the block's range on its axis. -/
theorem mem_values_block (t : Fin cfg0.N) (i : S8192x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v3_1).slice (win0_7.rect t)).set ↔ _
  rw [View.set_slice_whole, Rect.mem_set_unit]
  exact Iff.rfl

/-- Row r of the key array is written by point r / 1024. -/
theorem keys_cover (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  have ht : (i 0).val / 1024 < cfg0.N := by
    show (i 0).val / 1024 < grid0.N
    rw [N_0]; omega
  obtain ⟨-, -, -, -, -, -, -, -, -, -, e0, e1, -⟩ := index_facts ⟨(i 0).val / 1024, ht⟩
  have e0' : win0_6.index ⟨(i 0).val / 1024, ht⟩ (0 : Fin 2) = (i 0).val / 1024 := e0
  refine ⟨⟨(i 0).val / 1024, ht⟩, flush0_6 _, ?_⟩
  rw [mem_keys_block]
  intro a
  match a with
  | ⟨0, _⟩ =>
    show win0_6.index ⟨(i 0).val / 1024, ht⟩ (0 : Fin 2) * 1024 ≤ (i 0).val
      ∧ (i 0).val < win0_6.index ⟨(i 0).val / 1024, ht⟩ (0 : Fin 2) * 1024 + 1024
    rw [e0']; omega
  | ⟨1, _⟩ =>
    show win0_6.index ⟨(i 0).val / 1024, ht⟩ (1 : Fin 2) * 256 ≤ (i 1).val
      ∧ (i 1).val < win0_6.index ⟨(i 0).val / 1024, ht⟩ (1 : Fin 2) * 256 + 256
    rw [e1]; omega

/-- Row r of the value array is written by point r / 1024. -/
theorem values_cover (i : S8192x256.Idx) :
    ∃ t : Fin cfg0.N, (cfg0.win 7).flush t = true ∧ i ∈ ((cfg0.win 7).blk t).view.set := by
  have hi0 : (i 0).val < 8192 := (i 0).isLt
  have hi1 : (i 1).val < 256 := (i 1).isLt
  have ht : (i 0).val / 1024 < cfg0.N := by
    show (i 0).val / 1024 < grid0.N
    rw [N_0]; omega
  obtain ⟨-, -, -, -, -, -, -, -, -, -, -, -, e0, e1⟩ := index_facts ⟨(i 0).val / 1024, ht⟩
  have e0' : win0_7.index ⟨(i 0).val / 1024, ht⟩ (0 : Fin 2) = (i 0).val / 1024 := e0
  refine ⟨⟨(i 0).val / 1024, ht⟩, flush0_7 _, ?_⟩
  rw [mem_values_block]
  intro a
  match a with
  | ⟨0, _⟩ =>
    show win0_7.index ⟨(i 0).val / 1024, ht⟩ (0 : Fin 2) * 1024 ≤ (i 0).val
      ∧ (i 0).val < win0_7.index ⟨(i 0).val / 1024, ht⟩ (0 : Fin 2) * 1024 + 1024
    rw [e0']; omega
  | ⟨1, _⟩ =>
    show win0_7.index ⟨(i 0).val / 1024, ht⟩ (1 : Fin 2) * 256 ≤ (i 1).val
      ∧ (i 1).val < win0_7.index ⟨(i 0).val / 1024, ht⟩ (1 : Fin 2) * 256 + 256
    rw [e1]; omega

/-! ## The arrays after the region -/

/-- THE KEY ARRAY after the region, whatever the region found at entry, provided the key input, the key weights and
    the key bias hold only reals: the linear layer of their real parts, the weights read transposed. -/
theorem keys_array (V : (c : Dev nD) → (b : Ref sig .tc) → Buf (Elt Ideal) ((c : Thread nD τ).loc b)) (c : Dev nD)
    (hx : AllReal (V c (Pipeline.arrRef spec0 0) : S8192x256.Idx → EReal))
    (hW : AllReal (V c (Pipeline.arrRef spec0 2) : S256x256.Idx → EReal))
    (hb : AllReal (V c (Pipeline.arrRef spec0 3) : S256.Idx → EReal)) :
    (Gen.dat0 (F := Ideal) V c).arrAt 6 cfg0.N = fun idx =>
      ((dense (re2 (V c (Pipeline.arrRef spec0 0) : S8192x256.Idx → EReal))
        (fun d e => re2 (V c (Pipeline.arrRef spec0 2) : S256x256.Idx → EReal) e d)
        (re1 (V c (Pipeline.arrRef spec0 3) : S256.Idx → EReal)) (idx 0) (idx 1) : ℝ) : EReal) :=
  (dat0 (F := Ideal) V c).arrAt_eq_of_cover 6 (keysOf V c) (fun t _ => keys_flushed V c hx hW hb t) keys_cover

/-- THE VALUE ARRAY after the region, provided the value input, the value weights and the value bias hold only
    reals: the linear layer of their real parts, the weights read transposed. -/
theorem values_array (V : (c : Dev nD) → (b : Ref sig .tc) → Buf (Elt Ideal) ((c : Thread nD τ).loc b)) (c : Dev nD)
    (hx : AllReal (V c (Pipeline.arrRef spec0 1) : S8192x256.Idx → EReal))
    (hW : AllReal (V c (Pipeline.arrRef spec0 4) : S256x256.Idx → EReal))
    (hb : AllReal (V c (Pipeline.arrRef spec0 5) : S256.Idx → EReal)) :
    (Gen.dat0 (F := Ideal) V c).arrAt 7 cfg0.N = fun idx =>
      ((dense (re2 (V c (Pipeline.arrRef spec0 1) : S8192x256.Idx → EReal))
        (fun d e => re2 (V c (Pipeline.arrRef spec0 4) : S256x256.Idx → EReal) e d)
        (re1 (V c (Pipeline.arrRef spec0 5) : S256.Idx → EReal)) (idx 0) (idx 1) : ℝ) : EReal) :=
  (dat0 (F := Ideal) V c).arrAt_eq_of_cover 7 (valuesOf V c) (fun t _ => values_flushed V c hx hW hb t) values_cover

end Cert.ProjectionRegion

end
-- ==== Proof.FiniteInputs.lean ====
/-
  Finiteness of the inputs, read off the precondition.

  The precondition states, for each of the nine argument arrays, that `|x| < +∞` holds at every entry, and takes the
  conjunction of the nine statements. On the extended reals `|x| = max x (-x)`, and `max x (-x) < ⊤` excludes both
  `x = ⊤` (then `max x (-x) = ⊤`) and `x = ⊥` (then `-x = ⊤`); an extended real that is neither is a real number,
  `x = ↑x.toReal`. So under the precondition every entry of every argument array is real.
-/
import proofs.«150723_j24369644437965_2_alg».proof.Proof.AttentionSpec
import proofs.«150723_j24369644437965_2_alg».proof.Pre_finite_inputs
import Idealize.ShloMosaic.Lib.ReduceAll

noncomputable section

namespace Cert.FiniteInputs

open Idealize.ShloMosaic Cert.Pre_finite_inputs

/-- The rank-0 shape has one index. -/
instance : Subsingleton S_.Idx := ⟨fun a b => funext fun d => d.elim0⟩

/-- The word `0x7F800000` denotes `+∞`. -/
theorem posInf_word : Ideal.ofBits .f32 0x7F800000#32 = (⊤ : EReal) := by simp [Ideal.ofBits, Ideal.ieee]

/-- An extended real whose absolute value `max x (-x)` is below `+∞` is a real number. -/
theorem real_of_abs_lt_top (x : EReal) (h : max x (-x) < ⊤) : x = ((x.toReal : ℝ) : EReal) := by
  have hT : x ≠ ⊤ := fun e => by rw [e] at h; simp at h
  have hB : x ≠ ⊥ := fun e => by rw [e] at h; simp at h
  exact (EReal.coe_toReal hT hB).symm

/-- The element test of the precondition, `|x| < +∞` compared as floats, when it answers 1. -/
theorem real_of_test (x : EReal)
    (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  apply real_of_abs_lt_top
  have h' : Ideal.cmp .olt (max x (-x)) (Ideal.ofBits .f32 0x7F800000#32) = 1#1 := h
  rw [posInf_word] at h'
  unfold Ideal.cmp at h'
  by_contra hc
  simp [hc] at h'

/-- `jnp.all (|a| < +∞)` over an array of any shape: if the reduction by `and` is 1, every entry of `a` is real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant (F := Ideal) S_ .f32 0x7F800000#32))) init hr hu j = 1#1) :
    Cert.Attention.AllReal a := by
  intro i
  exact real_of_test (a i) (Host.reduce_andi_all _ init hr hu j e i)

/-- Under the precondition every entry of each of the nine argument arrays is a real number. -/
theorem allReal_of_pre [Cert.Pre_finite_inputs.Facts]
    (a0 a1 a2 : FVec Ideal Cert.Pre_finite_inputs.S8192x256 .f32) (a3 : FVec Ideal S256x256 .f32)
    (a4 : FVec Ideal S256 .f32) (a5 : FVec Ideal S256x256 .f32) (a6 : FVec Ideal S256 .f32)
    (a7 : FVec Ideal S256x256 .f32) (a8 : FVec Ideal S256 .f32)
    (h : Cert.Pre_finite_inputs.fn (F := Ideal) a0 a1 a2 a3 a4 a5 a6 a7 a8 = fun _ => 1#1) :
    Cert.Attention.AllReal a0 ∧ Cert.Attention.AllReal a1 ∧ Cert.Attention.AllReal a2 ∧ Cert.Attention.AllReal a3 ∧
      Cert.Attention.AllReal a4 ∧ Cert.Attention.AllReal a5 ∧ Cert.Attention.AllReal a6 ∧ Cert.Attention.AllReal a7 ∧
      Cert.Attention.AllReal a8 := by
  have e := congrFun h ValueIdx.ix0
  unfold Cert.Pre_finite_inputs.fn Cert.Pre_finite_inputs.fn_part1 Cert.Pre_finite_inputs.fn_part2 at e
  dsimp only at e
  simp only [Idealize.ShloMosaic.andi, IntOp.andi_eq_one] at e
  obtain ⟨⟨⟨⟨⟨⟨⟨⟨h0, h1⟩, h2⟩, h3⟩, h4⟩, h5⟩, h6⟩, h7⟩, h8⟩ := e
  exact ⟨allReal_of_all a0 _ _ _ _ _ h0, allReal_of_all a1 _ _ _ _ _ h1, allReal_of_all a2 _ _ _ _ _ h2,
    allReal_of_all a3 _ _ _ _ _ h3, allReal_of_all a4 _ _ _ _ _ h4, allReal_of_all a5 _ _ _ _ _ h5,
    allReal_of_all a6 _ _ _ _ _ h6, allReal_of_all a7 _ _ _ _ _ h7, allReal_of_all a8 _ _ _ _ _ h8⟩

end Cert.FiniteInputs

end
-- ==== Proof.KernelValue.lean ====
/-
  The idealized kernel's result, as the specification's function of the nine argument arrays.

  The program transposes the three weight matrices on the host, projects keys and values in a first call and
  attends in a second. The second call's result array is the softmax-weighted average computed from the first input,
  the transposed query weights, the query bias and the two arrays the first call left; those are the linear layers of
  the second and third inputs. Reading the weights through their transposes turns the input-major sums into the
  specification's output-major ones, and the whole is the specification's result of the argument arrays, all of whose
  entries are real under the precondition.
-/
import proofs.«150723_j24369644437965_2_alg».proof.Defs
import proofs.«150723_j24369644437965_2_alg».proof.Proof.KernelRun
import proofs.«150723_j24369644437965_2_alg».proof.Proof.AttentionRegion
import proofs.«150723_j24369644437965_2_alg».proof.Proof.ProjectionRegion
import proofs.«150723_j24369644437965_2_alg».proof.Proof.FiniteInputs
import Idealize.ShloMosaic.Lib.StableHlo.Run
import Idealize.ShloMosaic.Lib.ValueLayout

set_option maxRecDepth 16384

noncomputable section

open scoped BigOperators

namespace Cert.KernelValue

open Idealize.ShloMosaic Idealize.ShloMosaic.ValueIdx Idealize.ShloMosaic.TcCoe Idealize.SL.Sem
open Idealize.ShloMosaic.StableHlo
open Cert.KernelIdeal Cert.KernelIdeal.Gen Cert.Attention Cert.AttentionRegion

/-! ## Small facts about real parts -/

/-- The real parts of an array of coerced reals are those reals. -/
theorem re2_coe {a b : Nat} (f : Fin a → Fin b → ℝ) :
    re2 (fun idx : (⟨2, ![a, b]⟩ : Shape).Idx => ((f (idx 0) (idx 1) : ℝ) : EReal)) = f :=
  funext fun _ => funext fun _ => EReal.toReal_coe _

/-- An array of coerced reals has only real entries. -/
theorem allReal_coe {a b : Nat} (f : Fin a → Fin b → ℝ) :
    AllReal (fun idx : (⟨2, ![a, b]⟩ : Shape).Idx => ((f (idx 0) (idx 1) : ℝ) : EReal)) :=
  fun _ => by rw [EReal.toReal_coe]

/-- The transpose of a square matrix of reals has only real entries. -/
theorem allReal_transpose (W : S256x256.Idx → EReal) (h : S256x256.Transposes [1, 0] S256x256) (hW : AllReal W) :
    AllReal (transpose S256x256 [1, 0] W h) := fun i => by
  obtain ⟨a, b, rfl⟩ : ∃ (a b : Fin 256), i = ix2 a b := ⟨i 0, i 1, eq_ix2 i⟩
  rw [transpose_ix2_apply]
  exact hW _

/-- Reading a transposed matrix with the coordinates swapped reads the matrix. -/
theorem re2_transpose (W : S256x256.Idx → EReal) (h : S256x256.Transposes [1, 0] S256x256) :
    (fun d e => re2 (transpose S256x256 [1, 0] W h) e d) = re2 W :=
  funext fun d => funext fun e => by unfold re2; rw [transpose_ix2_apply]

/-- A linear layer read through transposed weights, of arrays known by other names, is the specification's layer. -/
theorem layer_congr {A A' : S8192x256.Idx → EReal} {Wt W : S256x256.Idx → EReal} {B B' : S256.Idx → EReal}
    (h : S256x256.Transposes [1, 0] S256x256) (e0 : A = A') (e1 : Wt = transpose S256x256 [1, 0] W h) (e2 : B = B') :
    (fun idx : S8192x256.Idx => ((dense (re2 A) (fun d e => re2 Wt e d) (re1 B) (idx 0) (idx 1) : ℝ) : EReal))
      = fun idx : S8192x256.Idx => ((queries A' W B' (idx 0) (idx 1) : ℝ) : EReal) := by
  subst e0 e1 e2
  rw [re2_transpose]
  rfl

/-- The attention function of arrays known by other names. -/
theorem attnOf_congr {A0 A0' : S8192x256.Idx → EReal} {A1 A1' : S256x256.Idx → EReal} {A2 A2' : S256.Idx → EReal}
    {A3 A3' A4 A4' : S8192x256.Idx → EReal} (e0 : A0 = A0') (e1 : A1 = A1') (e2 : A2 = A2') (e3 : A3 = A3')
    (e4 : A4 = A4') : attnOf A0 A1 A2 A3 A4 = attnOf A0' A1' A2' A3' A4' := by
  subst e0 e1 e2 e3 e4; rfl

variable (m : (ℓ : Loc nD τ sig) → Buf (Elt Ideal) ℓ) (ρ : Dev nD → PrngReg) (c : Dev nD)

/-! ## The arrays the first call finds -/

theorem first_x2 : (V1 m ρ c main_arg1 : S8192x256.Idx → EReal) = m ((c : Thread nD τ).loc main_arg1) :=
  ((W2_arr m ρ c 0).trans (((dat0 (V1 m ρ) c).arrAt_in 0 rfl _).trans (A_eq0 (V1 m ρ) c 0))).symm.trans
    ((W3_of_ne m ρ c main_arg1 (by decide)).symm.trans (W3_main_arg1 m ρ c))

theorem first_x3 : (V1 m ρ c main_arg2 : S8192x256.Idx → EReal) = m ((c : Thread nD τ).loc main_arg2) :=
  ((W2_arr m ρ c 1).trans (((dat0 (V1 m ρ) c).arrAt_in 1 rfl _).trans (A_eq0 (V1 m ρ) c 1))).symm.trans
    ((W3_of_ne m ρ c main_arg2 (by decide)).symm.trans (W3_main_arg2 m ρ c))

theorem first_bk : (V1 m ρ c main_arg6 : S256.Idx → EReal) = m ((c : Thread nD τ).loc main_arg6) :=
  ((W2_arr m ρ c 3).trans (((dat0 (V1 m ρ) c).arrAt_in 3 rfl _).trans (A_eq0 (V1 m ρ) c 3))).symm.trans
    ((W3_of_ne m ρ c main_arg6 (by decide)).symm.trans (W3_main_arg6 m ρ c))

theorem first_bv : (V1 m ρ c main_arg8 : S256.Idx → EReal) = m ((c : Thread nD τ).loc main_arg8) :=
  ((W2_arr m ρ c 5).trans (((dat0 (V1 m ρ) c).arrAt_in 5 rfl _).trans (A_eq0 (V1 m ρ) c 5))).symm.trans
    ((W3_of_ne m ρ c main_arg8 (by decide)).symm.trans (W3_main_arg8 m ρ c))

/-- The host's three transposes, read after the host line. -/
theorem first_wk : (V1 m ρ c main_v1 : S256x256.Idx → EReal)
    = transpose S256x256 [1, 0] (m ((c : Thread nD τ).loc main_arg5)) transposes_S256x256_S256x256_1_0 := by
  show StableHlo.after hostOps0 (W0 m ρ c) (Proc.devRef .tc main_v1) = _
  after_results

theorem first_wv : (V1 m ρ c main_v2 : S256x256.Idx → EReal)
    = transpose S256x256 [1, 0] (m ((c : Thread nD τ).loc main_arg7)) transposes_S256x256_S256x256_1_0 := by
  show StableHlo.after hostOps0 (W0 m ρ c) (Proc.devRef .tc main_v2) = _
  after_results

theorem first_wq : (V1 m ρ c main_v0 : S256x256.Idx → EReal)
    = transpose S256x256 [1, 0] (m ((c : Thread nD τ).loc main_arg3)) transposes_S256x256_S256x256_1_0 := by
  show StableHlo.after hostOps0 (W0 m ρ c) (Proc.devRef .tc main_v0) = _
  after_results

/-! ## The arrays the second call finds -/

theorem second_x1 : (V2 m ρ c main_arg0 : S8192x256.Idx → EReal) = m ((c : Thread nD τ).loc main_arg0) :=
  ((W3_arr m ρ c 0).trans (((dat1 (V2 m ρ) c).arrAt_in 0 rfl _).trans (A_eq1 (V2 m ρ) c 0))).symm.trans
    (W3_main_arg0 m ρ c)

theorem second_bq : (V2 m ρ c main_arg4 : S256.Idx → EReal) = m ((c : Thread nD τ).loc main_arg4) :=
  ((W3_arr m ρ c 2).trans (((dat1 (V2 m ρ) c).arrAt_in 2 rfl _).trans (A_eq1 (V2 m ρ) c 2))).symm.trans
    (W3_main_arg4 m ρ c)

theorem second_wq : (V2 m ρ c main_v0 : S256x256.Idx → EReal)
    = transpose S256x256 [1, 0] (m ((c : Thread nD τ).loc main_arg3)) transposes_S256x256_S256x256_1_0 :=
  (W2_of_ne m ρ c main_v0 (by decide)).trans (first_wq m ρ c)

/-! ## The result -/

/-- THE KERNEL'S RESULT ARRAY is the specification's function of the argument arrays. -/
theorem kernel_result [Cert.Pre_finite_inputs.Facts] (hpre : Cert.Pre_KernelIdeal m) :
    (W3 m ρ c (Proc.devRef .tc main_v4) : S8192x256.Idx → EReal)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  obtain ⟨r0, r1, r2, r3, r4, r5, r6, r7, r8⟩ := Cert.FiniteInputs.allReal_of_pre _ _ _ _ _ _ _ _ _ (hpre c)
  have kx : AllReal (V1 m ρ c main_arg1 : S8192x256.Idx → EReal) := (first_x2 m ρ c).symm ▸ r1
  have kw : AllReal (V1 m ρ c main_v1 : S256x256.Idx → EReal) := (first_wk m ρ c).symm ▸ allReal_transpose _ _ r5
  have kb : AllReal (V1 m ρ c main_arg6 : S256.Idx → EReal) := (first_bk m ρ c).symm ▸ r6
  have vx : AllReal (V1 m ρ c main_arg2 : S8192x256.Idx → EReal) := (first_x3 m ρ c).symm ▸ r2
  have vw : AllReal (V1 m ρ c main_v2 : S256x256.Idx → EReal) := (first_wv m ρ c).symm ▸ allReal_transpose _ _ r7
  have vb : AllReal (V1 m ρ c main_arg8 : S256.Idx → EReal) := (first_bv m ρ c).symm ▸ r8
  have hK : (V2 m ρ c main_v3_0 : S8192x256.Idx → EReal)
      = fun idx : S8192x256.Idx => ((queries (m ((c : Thread nD τ).loc main_arg1)) (m ((c : Thread nD τ).loc main_arg5))
          (m ((c : Thread nD τ).loc main_arg6)) (idx 0) (idx 1) : ℝ) : EReal) :=
    ((W2_arr m ρ c 6).trans (Cert.ProjectionRegion.keys_array (V1 m ρ) c kx kw kb)).trans
      (layer_congr _ (first_x2 m ρ c) (first_wk m ρ c) (first_bk m ρ c))
  have hV : (V2 m ρ c main_v3_1 : S8192x256.Idx → EReal)
      = fun idx : S8192x256.Idx => ((queries (m ((c : Thread nD τ).loc main_arg2)) (m ((c : Thread nD τ).loc main_arg7))
          (m ((c : Thread nD τ).loc main_arg8)) (idx 0) (idx 1) : ℝ) : EReal) :=
    ((W2_arr m ρ c 7).trans (Cert.ProjectionRegion.values_array (V1 m ρ) c vx vw vb)).trans
      (layer_congr _ (first_x3 m ρ c) (first_wv m ρ c) (first_bv m ρ c))
  have a0 : AllReal (V2 m ρ c main_arg0 : S8192x256.Idx → EReal) := (second_x1 m ρ c).symm ▸ r0
  have a1 : AllReal (V2 m ρ c main_v0 : S256x256.Idx → EReal) := (second_wq m ρ c).symm ▸ allReal_transpose _ _ r3
  have a2 : AllReal (V2 m ρ c main_arg4 : S256.Idx → EReal) := (second_bq m ρ c).symm ▸ r4
  have a3 : AllReal (V2 m ρ c main_v3_0 : S8192x256.Idx → EReal) := hK.symm ▸ allReal_coe _
  have a4 : AllReal (V2 m ρ c main_v3_1 : S8192x256.Idx → EReal) := hV.symm ▸ allReal_coe _
  refine ((W3_arr m ρ c 5).trans (result_array (V2 m ρ) c a0 a1 a2 a3 a4)).trans ?_
  refine (attnOf_congr (second_x1 m ρ c) (second_wq m ρ c) (second_bq m ρ c) hK hV).trans ?_
  funext idx
  unfold attnOf result
  rw [re2_transpose, re2_coe, re2_coe]
  rfl

end Cert.KernelValue

end
-- ==== Proof.RefAttention.lean ====
/-
  The reference program computes unscaled dot-product attention.

  The reference evaluates three linear layers `q = x₁ Wqᵀ + bq`, `k = x₂ Wkᵀ + bk`, `v = x₃ Wvᵀ + bv`, the scores
  `s i j = ∑ d, q i d * k j d`, and then the two-pass softmax-weighted average: the row maximum `M i` folded from
  `−∞`, the weights `exp (s i j − M i)`, their row sum `L i` started from `0`, the normalized weights
  `exp (s i j − M i) / L i`, and the product of these with `v`.

  For arrays whose entries are all real, every intermediate entry is a real: sums and products of reals are reals,
  the maximum of a nonempty row of reals is a real, an exponential of a real is a positive real, so the row sum is a
  positive real and the quotient is the real quotient. The normalized average is then the ratio of the weighted sum to
  the normalizer, and subtracting the row maximum from every score changes neither; this is the specification's
  `attend`.
-/
import proofs.«150723_j24369644437965_2_alg».proof.Proof.Gen.ReferenceIdeal.Read
import proofs.«150723_j24369644437965_2_alg».proof.Proof.AttentionSpec
import proofs.«150723_j24369644437965_2_alg».proof.Proof.LibLogSoftmax
import proofs.«150723_j24369644437965_2_alg».proof.Proof.LibOnlineSoftmax
import proofs.«150723_j24369644437965_2_alg».proof.Proof.LibFiniteAssoc

noncomputable section

open scoped BigOperators

namespace Cert.RefAttention

open Idealize.ShloMosaic Idealize.ShloMosaic.ValueIdx Cert.Attention Cert.ReferenceIdeal Cert.ReferenceIdeal.Read

/-! ## Reals inside the extended reals -/

/-- The bit pattern of `−∞` denotes the bottom of the extended reals. -/
theorem negInf_eq_bot : Ideal.ofBits .f32 0xFF800000#32 = (⊥ : EReal) := by
  simp [Ideal.ofBits, Ideal.ieee]

/-- The maximum, folded from `−∞`, of the reals of a nonempty finite family is a real: it is at least one of them,
    so it is not `−∞`, and each of them is below `+∞`, so it is not `+∞`. -/
theorem fold_max_real {ι : Type} [Fintype ι] [Nonempty ι] (s : ι → ℝ) :
    ∃ m : ℝ, (Finset.univ : Finset ι).fold max (⊥ : EReal) (fun j => ((s j : ℝ) : EReal)) = (m : EReal) := by
  obtain ⟨j0⟩ := ‹Nonempty ι›
  have hbot : (Finset.univ : Finset ι).fold max (⊥ : EReal) (fun j => ((s j : ℝ) : EReal)) ≠ ⊥ := by
    have h : ((s j0 : ℝ) : EReal) ≤ (Finset.univ : Finset ι).fold max (⊥ : EReal) (fun j => ((s j : ℝ) : EReal)) :=
      (Finset.le_fold_max _).mpr (Or.inr ⟨j0, Finset.mem_univ _, le_rfl⟩)
    intro e
    rw [e] at h
    exact absurd h (not_le.mpr (EReal.bot_lt_coe _))
  have htop : (Finset.univ : Finset ι).fold max (⊥ : EReal) (fun j => ((s j : ℝ) : EReal)) ≠ ⊤ :=
    ne_of_lt ((Finset.fold_max_lt _).mpr ⟨bot_lt_top, fun x _ => EReal.coe_lt_top _⟩)
  exact ⟨_, (EReal.coe_toReal htop hbot).symm⟩

/-- The two-pass softmax-weighted average of real values `w` with real scores `s`, taken in the extended reals
    relative to a real level `m` with the normalizer started from `0`, is the real softmax-weighted average. -/
theorem softmax_row {ι : Type} [Fintype ι] [Nonempty ι] (s w : ι → ℝ) (m : ℝ) :
    ∑ j, Ideal.div (Ideal.exp (((s j : ℝ) : EReal) - (m : EReal)))
          (0 + ∑ j', Ideal.exp (((s j' : ℝ) : EReal) - (m : EReal))) * ((w j : ℝ) : EReal)
      = (((∑ j, Real.exp (s j) * w j) / (∑ j, Real.exp (s j)) : ℝ) : EReal) := by
  have hexp : ∀ j, Ideal.exp (((s j : ℝ) : EReal) - (m : EReal)) = ((Real.exp (s j - m) : ℝ) : EReal) := fun j => by
    rw [← EReal.coe_sub]
    rfl
  have hsum : (∑ j', Ideal.exp (((s j' : ℝ) : EReal) - (m : EReal))) = ((∑ j', Real.exp (s j' - m) : ℝ) : EReal) := by
    rw [← Cert.LibFiniteAssoc.coe_sum_real]
    exact Finset.sum_congr rfl fun j _ => hexp j
  have hL : (∑ j', Real.exp (s j' - m)) ≠ 0 :=
    ne_of_gt (OnlineSoftmax.normalizer_pos Finset.univ Finset.univ_nonempty (fun j => s j - m))
  have hnf := OnlineSoftmax.normalize_first Finset.univ (fun j => Real.exp (s j - m)) w
  rw [zero_add] at hnf
  calc ∑ j, Ideal.div (Ideal.exp (((s j : ℝ) : EReal) - (m : EReal)))
          (0 + ∑ j', Ideal.exp (((s j' : ℝ) : EReal) - (m : EReal))) * ((w j : ℝ) : EReal)
      = ∑ j, ((Real.exp (s j - m) / (∑ j', Real.exp (s j' - m)) * w j : ℝ) : EReal) :=
        Finset.sum_congr rfl fun j _ => by
          rw [hsum, zero_add, hexp j, Ideal.div_coe hL, ← EReal.coe_mul, ← EReal.coe_mul, mul_one_div]
    _ = _ := by
        rw [Cert.LibFiniteAssoc.coe_sum_real]
        exact congrArg _ (hnf.trans (OnlineSoftmax.shift Finset.univ s w m))

/-! ## The linear layers and the scores -/

/-- An entry of an all-real matrix is its real part. -/
theorem entry2 {n0 n1 : Nat} {a : (⟨2, ![n0, n1]⟩ : Shape).Idx → EReal} (h : AllReal a) (i : Fin n0) (j : Fin n1) :
    a (ix2 i j) = ((re2 a i j : ℝ) : EReal) := h (ix2 i j)

/-- An entry of an all-real vector is its real part. -/
theorem entry1 {n : Nat} {a : (⟨1, ![n]⟩ : Shape).Idx → EReal} (h : AllReal a) (i : Fin n) :
    a (ix1 i) = ((re1 a i : ℝ) : EReal) := h (ix1 i)

/-- The query layer at `(r, d)`: the sum over `e` of `x (r, e) * W (d, e)`, plus `b d`, all of them reals. -/
theorem dense_q (x0 : (⟨S8192x256, .f32⟩ : BufTy).Contents (Elt Ideal)) (x3 : (⟨S256x256, .f32⟩ : BufTy).Contents (Elt Ideal))
    (x4 : (⟨S256, .f32⟩ : BufTy).Contents (Elt Ideal)) (h0 : AllReal x0) (h3 : AllReal x3) (h4 : AllReal x4) (r : Fin 8192) (d : Fin 256) :
    val_main_v4 (F := Ideal) x0 x3 x4 (ix2 r d) = ((queries x0 x3 x4 r d : ℝ) : EReal) := by
  rw [val_main_v4_apply, val_main_v1_apply, val_main_v3_apply, val_main_v2_apply]
  show (∑ k : Fin 256, x0 (lidx_main_v1 (ix2 r d) k) * val_main_v0 (F := Ideal) x3 (ridx_main_v1 (ix2 r d) k))
      + x4 (idx_main_v2 (idx_main_v3 (ix2 r d))) = _
  have e4 : idx_main_v2 (idx_main_v3 (ix2 r d)) = ix1 d := funext fun a => Fin.ext (by match a with | ⟨0, _⟩ => rfl)
  have hk : ∀ k : Fin 256, x0 (lidx_main_v1 (ix2 r d) k) * val_main_v0 (F := Ideal) x3 (ridx_main_v1 (ix2 r d) k)
      = ((re2 x0 r k * re2 x3 d k : ℝ) : EReal) := fun k => by
    have el : lidx_main_v1 (ix2 r d) k = ix2 r k := funext fun a => Fin.ext (by match a with | ⟨0, _⟩ => rfl | ⟨1, _⟩ => rfl)
    have er : idx_main_v0 (ridx_main_v1 (ix2 r d) k) = ix2 d k := funext fun a => Fin.ext (by match a with | ⟨0, _⟩ => rfl | ⟨1, _⟩ => rfl)
    rw [val_main_v0_apply, el, er, entry2 h0, entry2 h3, ← EReal.coe_mul]
  rw [Finset.sum_congr rfl fun k _ => hk k, Cert.LibFiniteAssoc.coe_sum_real, e4, entry1 h4, ← EReal.coe_add]
  rfl

/-- The key layer is the same function of its three arrays. -/
theorem dense_k (x1 : (⟨S8192x256, .f32⟩ : BufTy).Contents (Elt Ideal)) (x5 : (⟨S256x256, .f32⟩ : BufTy).Contents (Elt Ideal))
    (x6 : (⟨S256, .f32⟩ : BufTy).Contents (Elt Ideal)) (h1 : AllReal x1) (h5 : AllReal x5) (h6 : AllReal x6) (r : Fin 8192) (d : Fin 256) :
    val_main_v9 (F := Ideal) x1 x5 x6 (ix2 r d) = ((queries x1 x5 x6 r d : ℝ) : EReal) :=
  dense_q x1 x5 x6 h1 h5 h6 r d

/-- The value layer is the same function of its three arrays. -/
theorem dense_v (x2 : (⟨S8192x256, .f32⟩ : BufTy).Contents (Elt Ideal)) (x7 : (⟨S256x256, .f32⟩ : BufTy).Contents (Elt Ideal))
    (x8 : (⟨S256, .f32⟩ : BufTy).Contents (Elt Ideal)) (h2 : AllReal x2) (h7 : AllReal x7) (h8 : AllReal x8) (r : Fin 8192) (d : Fin 256) :
    val_main_v14 (F := Ideal) x2 x7 x8 (ix2 r d) = ((queries x2 x7 x8 r d : ℝ) : EReal) :=
  dense_q x2 x7 x8 h2 h7 h8 r d

/-- The score of query row `i` against key row `j`: a sum of products of reals. -/
theorem score_entry (x0 : (⟨S8192x256, .f32⟩ : BufTy).Contents (Elt Ideal)) (x1 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal))
    (h0 : AllReal x0) (h1 : AllReal x1) (h3 : AllReal x3) (h4 : AllReal x4) (h5 : AllReal x5) (h6 : AllReal x6)
    (i j : Fin 8192) :
    val_main_v16 (F := Ideal) x0 x1 x3 x4 x5 x6 (ix2 i j)
      = ((score (queries x0 x3 x4) (queries x1 x5 x6) i j : ℝ) : EReal) := by
  rw [val_main_v16_apply]
  have hk : ∀ k : Fin 256, val_main_v4 (F := Ideal) x0 x3 x4 (lidx_main_v16 (ix2 i j) k)
        * val_main_v15 (F := Ideal) x1 x5 x6 (ridx_main_v16 (ix2 i j) k)
      = ((queries x0 x3 x4 i k * queries x1 x5 x6 j k : ℝ) : EReal) := fun k => by
    have el : lidx_main_v16 (ix2 i j) k = ix2 i k := funext fun a => Fin.ext (by match a with | ⟨0, _⟩ => rfl | ⟨1, _⟩ => rfl)
    have er : idx_main_v15 (ridx_main_v16 (ix2 i j) k) = ix2 j k := funext fun a => Fin.ext (by match a with | ⟨0, _⟩ => rfl | ⟨1, _⟩ => rfl)
    rw [val_main_v15_apply, el, er, dense_q x0 x3 x4 h0 h3 h4, dense_k x1 x5 x6 h1 h5 h6, ← EReal.coe_mul]
  rw [Finset.sum_congr rfl fun k _ => hk k, Cert.LibFiniteAssoc.coe_sum_real]
  rfl

/-! ## The softmax rows -/

/-- The subtracted level of row `i` — the row maximum folded from `−∞`, and once more against `−∞` — is a real. -/
theorem level_real (x0 : (⟨S8192x256, .f32⟩ : BufTy).Contents (Elt Ideal)) (x1 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal))
    (h0 : AllReal x0) (h1 : AllReal x1) (h3 : AllReal x3) (h4 : AllReal x4) (h5 : AllReal x5) (h6 : AllReal x6)
    (i : Fin 8192) :
    ∃ m : ℝ, val_main_v19 (F := Ideal) x0 x1 x3 x4 x5 x6 (ix1 i) = (m : EReal) := by
  obtain ⟨m, hm⟩ := fold_max_real (fun j : Fin 8192 => score (queries x0 x3 x4) (queries x1 x5 x6) i j)
  refine ⟨m, Eq.trans ?_ hm⟩
  rw [val_main_v19_apply, val_main_v18_apply, val_main_cst_0_apply]
  show max (Ideal.ofBits .f32 0xFF800000#32) (val_main_v17 (F := Ideal) x0 x1 x3 x4 x5 x6 (ix1 i)) = _
  have hR : (⟨2, ![8192, 8192]⟩ : Shape).Reduces [1] ⟨1, ![8192]⟩ := by decide
  have h17 : val_main_v17 (F := Ideal) x0 x1 x3 x4 x5 x6 (ix1 i)
      = Cert.LibLogSoftmax.rowMax (val_main_v16 (F := Ideal) x0 x1 x3 x4 x5 x6) i :=
    Cert.LibLogSoftmax.hostRowMax_apply (val_main_v16 (F := Ideal) x0 x1 x3 x4 x5 x6) _ hR _ i
  rw [h17, Cert.LibLogSoftmax.max_negInf_rowMax]
  unfold Cert.LibLogSoftmax.rowMax
  rw [negInf_eq_bot]
  exact congrArg (fun f => Finset.fold max (⊥ : EReal) f (Finset.univ : Finset (Fin 8192)))
    (funext fun j => score_entry x0 x1 x3 x4 x5 x6 h0 h1 h3 h4 h5 h6 i j)

/-- The weight of key `j` in row `i`: the exponential of the score less the row's level. -/
theorem weight_entry (x0 : (⟨S8192x256, .f32⟩ : BufTy).Contents (Elt Ideal)) (x1 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal))
    (h0 : AllReal x0) (h1 : AllReal x1) (h3 : AllReal x3) (h4 : AllReal x4) (h5 : AllReal x5) (h6 : AllReal x6)
    (i j : Fin 8192) (m : ℝ) (hm : val_main_v19 (F := Ideal) x0 x1 x3 x4 x5 x6 (ix1 i) = (m : EReal)) :
    val_main_v23 (F := Ideal) x0 x1 x3 x4 x5 x6 (ix2 i j)
      = Ideal.exp (((score (queries x0 x3 x4) (queries x1 x5 x6) i j : ℝ) : EReal) - (m : EReal)) := by
  rw [val_main_v23_apply, val_main_v22_apply, val_main_v21_apply, val_main_v20_apply]
  have e : idx_main_v20 (idx_main_v21 (ix2 i j)) = ix1 i := funext fun a => Fin.ext (by match a with | ⟨0, _⟩ => rfl)
  rw [e, hm, score_entry x0 x1 x3 x4 x5 x6 h0 h1 h3 h4 h5 h6 i j]
  rfl

/-- The normalizer of row `i`: the sum of the row's weights, started from `0`. -/
theorem normalizer_entry (x0 : (⟨S8192x256, .f32⟩ : BufTy).Contents (Elt Ideal)) (x1 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal))
    (h0 : AllReal x0) (h1 : AllReal x1) (h3 : AllReal x3) (h4 : AllReal x4) (h5 : AllReal x5) (h6 : AllReal x6)
    (i : Fin 8192) (m : ℝ) (hm : val_main_v19 (F := Ideal) x0 x1 x3 x4 x5 x6 (ix1 i) = (m : EReal)) :
    val_main_v24 (F := Ideal) x0 x1 x3 x4 x5 x6 (ix1 i)
      = 0 + ∑ j : Fin 8192, Ideal.exp (((score (queries x0 x3 x4) (queries x1 x5 x6) i j : ℝ) : EReal) - (m : EReal)) := by
  rw [val_main_v24_apply, val_main_cst_1_apply]
  show Ideal.ofBits .f32 0x00000000#32 + _ = _
  rw [Ideal.ofBits_zero_f32]
  refine congrArg (fun t => (0 : EReal) + t) (Finset.sum_congr rfl fun k _ => ?_)
  have e : idx_main_v24 (ix1 i) k = ix2 i k := funext fun a => Fin.ext (by match a with | ⟨0, _⟩ => rfl | ⟨1, _⟩ => rfl)
  rw [e, weight_entry x0 x1 x3 x4 x5 x6 h0 h1 h3 h4 h5 h6 i k m hm]

/-- The normalized weight of key `j` in row `i`. -/
theorem prob_entry (x0 : (⟨S8192x256, .f32⟩ : BufTy).Contents (Elt Ideal)) (x1 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal))
    (h0 : AllReal x0) (h1 : AllReal x1) (h3 : AllReal x3) (h4 : AllReal x4) (h5 : AllReal x5) (h6 : AllReal x6)
    (i j : Fin 8192) (m : ℝ) (hm : val_main_v19 (F := Ideal) x0 x1 x3 x4 x5 x6 (ix1 i) = (m : EReal)) :
    val_main_v27 (F := Ideal) x0 x1 x3 x4 x5 x6 (ix2 i j)
      = Ideal.div (Ideal.exp (((score (queries x0 x3 x4) (queries x1 x5 x6) i j : ℝ) : EReal) - (m : EReal)))
          (0 + ∑ j' : Fin 8192, Ideal.exp (((score (queries x0 x3 x4) (queries x1 x5 x6) i j' : ℝ) : EReal) - (m : EReal))) := by
  rw [val_main_v27_apply, val_main_v26_apply, val_main_v25_apply]
  have e : idx_main_v25 (idx_main_v26 (ix2 i j)) = ix1 i := funext fun a => Fin.ext (by match a with | ⟨0, _⟩ => rfl)
  rw [e, normalizer_entry x0 x1 x3 x4 x5 x6 h0 h1 h3 h4 h5 h6 i m hm, weight_entry x0 x1 x3 x4 x5 x6 h0 h1 h3 h4 h5 h6 i j m hm]
  rfl

/-! ## The result -/

/-- THE REFERENCE'S RESULT on all-real arrays is the specification's attention. -/
theorem ref_result [Cert.ReferenceIdeal.Facts] (x0 : (⟨S8192x256, .f32⟩ : BufTy).Contents (Elt Ideal)) (x1 : (⟨S8192x256, .f32⟩ : BufTy).Contents (Elt Ideal)) (x2 : (⟨S8192x256, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (h0 : AllReal x0) (h1 : AllReal x1) (h2 : AllReal x2) (h3 : AllReal x3) (h4 : AllReal x4) (h5 : AllReal x5)
    (h6 : AllReal x6) (h7 : AllReal x7) (h8 : AllReal x8) :
    val_main_v28 (F := Ideal) x0 x1 x2 x3 x4 x5 x6 x7 x8 = result x0 x1 x2 x3 x4 x5 x6 x7 x8 := by
  funext idx
  obtain ⟨i, c, rfl⟩ : ∃ (i : Fin 8192) (c : Fin 256), idx = ix2 i c := ⟨idx 0, idx 1, eq_ix2 idx⟩
  obtain ⟨m, hm⟩ := level_real x0 x1 x3 x4 x5 x6 h0 h1 h3 h4 h5 h6 i
  rw [val_main_v28_apply]
  have hk : ∀ k : Fin 8192, val_main_v27 (F := Ideal) x0 x1 x3 x4 x5 x6 (lidx_main_v28 (ix2 i c) k)
        * val_main_v14 (F := Ideal) x2 x7 x8 (ridx_main_v28 (ix2 i c) k)
      = Ideal.div (Ideal.exp (((score (queries x0 x3 x4) (queries x1 x5 x6) i k : ℝ) : EReal) - (m : EReal)))
          (0 + ∑ j' : Fin 8192, Ideal.exp (((score (queries x0 x3 x4) (queries x1 x5 x6) i j' : ℝ) : EReal) - (m : EReal)))
        * ((queries x2 x7 x8 k c : ℝ) : EReal) := fun k => by
    have el : lidx_main_v28 (ix2 i c) k = ix2 i k := funext fun a => Fin.ext (by match a with | ⟨0, _⟩ => rfl | ⟨1, _⟩ => rfl)
    have er : ridx_main_v28 (ix2 i c) k = ix2 k c := funext fun a => Fin.ext (by match a with | ⟨0, _⟩ => rfl | ⟨1, _⟩ => rfl)
    rw [el, er, prob_entry x0 x1 x3 x4 x5 x6 h0 h1 h3 h4 h5 h6 i k m hm, dense_v x2 x7 x8 h2 h7 h8]
  rw [Finset.sum_congr rfl fun k _ => hk k]
  exact softmax_row (fun j : Fin 8192 => score (queries x0 x3 x4) (queries x1 x5 x6) i j) (fun j : Fin 8192 => queries x2 x7 x8 j c) m

end Cert.RefAttention

end
-- ==== Proof.lean ====
/-
  Unscaled dot-product attention: a two-call kernel against the plain formula, over the extended reals.

  The kernel projects keys and values in a first call (row blocks of 1024, weights transposed on the host beforehand)
  and, in a second call, projects each tile of 512 queries and streams over the 8192 keys in eight chunks of 1024,
  keeping a running level, a running normalizer and a running weighted sum of value rows, rescaled by
  `exp (old level - new level)` whenever the level moves; it finally divides the weighted sum by the normalizer. The
  reference computes all scores, subtracts each row's maximum, exponentiates, normalizes and multiplies by the values.
  With every input entry real (the precondition), both are
  `out i c = (∑ j, exp (s i j) * v j c) / (∑ j, exp (s i j))`, `s i j = ∑ d, q i d * k j d`, of the three linear layers
  `q, k, v`: a softmax-weighted average does not depend on the level subtracted from the scores, partial sums taken
  relative to one level are carried to another by the factor `exp` of the difference, and normalizing the weights
  before or after the weighted sum is the same for a nonzero real normalizer. Finiteness is used throughout: these
  laws fail at the infinities.

  The three frames are the generated ones (the reference's is its generated run with the result dropped); the kernel
  was printed with no rewrite, so there is nothing to preserve; the algebraic claim takes both results to the
  specification `Cert.Attention.result`.
-/
import proofs.«150723_j24369644437965_2_alg».proof.Defs
import proofs.«150723_j24369644437965_2_alg».proof.Proof.Gen.Kernel
import proofs.«150723_j24369644437965_2_alg».proof.Proof.Gen.Kernel.Skeleton
import proofs.«150723_j24369644437965_2_alg».proof.Proof.Gen.Kernel.Launch
import proofs.«150723_j24369644437965_2_alg».proof.Proof.Gen.Kernel.Points
import proofs.«150723_j24369644437965_2_alg».proof.Proof.Gen.Kernel.Frame
import proofs.«150723_j24369644437965_2_alg».proof.Proof.Gen.KernelIdeal
import proofs.«150723_j24369644437965_2_alg».proof.Proof.Gen.KernelIdeal.Skeleton
import proofs.«150723_j24369644437965_2_alg».proof.Proof.Gen.KernelIdeal.Launch
import proofs.«150723_j24369644437965_2_alg».proof.Proof.Gen.KernelIdeal.Points
import proofs.«150723_j24369644437965_2_alg».proof.Proof.Gen.KernelIdeal.Frame
import proofs.«150723_j24369644437965_2_alg».proof.Proof.Gen.ReferenceIdeal
import proofs.«150723_j24369644437965_2_alg».proof.Proof.Gen.Pre_finite_inputs
import proofs.«150723_j24369644437965_2_alg».proof.Proof.Gen.ReferenceIdeal.Run
import proofs.«150723_j24369644437965_2_alg».proof.Proof.Gen.ReferenceIdeal.Read
import proofs.«150723_j24369644437965_2_alg».proof.Proof.KernelRun
import proofs.«150723_j24369644437965_2_alg».proof.Proof.KernelValue
import proofs.«150723_j24369644437965_2_alg».proof.Proof.RefAttention
import proofs.«150723_j24369644437965_2_alg».proof.Proof.FiniteInputs
import Idealize.ShloMosaic.Adequacy
import Idealize.ShloMosaic.Init

noncomputable section

namespace Cert.Proof

open Idealize.ShloMosaic Idealize.SL.Sem

/-- Both idealized programs end with the specification's attention of the argument arrays. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Attention.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelValue.kernel_result m ρ c hpre), (h c).2⟩)
      (Cert.KernelRun.run (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8⟩ := hagree c
    obtain ⟨r0, r1, r2, r3, r4, r5, r6, r7, r8⟩ := Cert.FiniteInputs.allReal_of_pre _ _ _ _ _ _ _ _ _ (hpre c)
    rw [(h c).1, Cert.ReferenceIdeal.Read.val_main_v28_eq, e0, e1, e2, e3, e4, e5, e6, e7, e8]
    exact Cert.RefAttention.ref_result _ _ _ _ _ _ _ _ _ r0 r1 r2 r3 r4 r5 r6 r7 r8

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
